-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_v16) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x256x64 : Shape := ⟨3, ![32, 256, 64]⟩
abbrev S32x256x256x64 : Shape := ⟨4, ![32, 256, 256, 64]⟩
abbrev S32x256x256 : Shape := ⟨3, ![32, 256, 256]⟩
abbrev S_ : Shape := ⟨0, ![]⟩

class Facts : Prop where
  bcast_S_S32x256x64 : S_.BroadcastsInDim S32x256x64 (![] : Fin 0 → Fin S32x256x64.rank)
  reducesTo_S32x256x64_S_d0_1_2 : S32x256x64.ReducesTo [0, 1, 2] S_
  h_S_ : 0 < S_.numel
  bcast_S_S32x256x256x64 : S_.BroadcastsInDim S32x256x256x64 (![] : Fin 0 → Fin S32x256x256x64.rank)
  reducesTo_S32x256x256x64_S_d0_1_2_3 : S32x256x256x64.ReducesTo [0, 1, 2, 3] S_

variable [Facts]

def fn_part1 {F : FTy → Type} [FloatOps F] (main_arg4 : FVec F S32x256x256x64 .f32) (main_v13 : IVec S_ 1) (main_v16 : IVec S32x256x256x64 1) : IVec S_ 1 :=
  let main_c_5 : IVec S_ 1 := constantI S_ 1 1#1
  let main_v17 : IVec S_ 1 := (fun x v => Host.reduce IntOp.andi x v reducesTo_S32x256x256x64_S_d0_1_2_3 h_S_) main_v16 main_c_5
  let main_v18 : IVec S_ 1 := andi main_v13 main_v17
  let main_v19 : FVec F S32x256x256x64 .f32 := Host.absf main_arg4
  let main_cst_6 : FVec F S_ .f32 := constant S_ .f32 0x7F800000#32
  let main_v20 : FVec F S32x256x256x64 .f32 := broadcastInDim S32x256x256x64 ![] bcast_S_S32x256x256x64 main_cst_6
  let main_v21 : IVec S32x256x256x64 1 := cmpf .olt main_v19 main_v20
  let main_c_7 : IVec S_ 1 := constantI S_ 1 1#1
  let main_v22 : IVec S_ 1 := (fun x v => Host.reduce IntOp.andi x v reducesTo_S32x256x256x64_S_d0_1_2_3 h_S_) main_v21 main_c_7
  let main_v23 : IVec S_ 1 := andi main_v18 main_v22
  main_v23

def fn {F : FTy → Type} [FloatOps F] (main_arg0 : FVec F S32x256x64 .f32) (main_arg1 : FVec F S32x256x64 .f32) (main_arg2 : FVec F S32x256x64 .f32) (main_arg3 : FVec F S32x256x256x64 .f32) (main_arg4 : FVec F S32x256x256x64 .f32) (main_arg5 : IVec S32x256x256 32) : IVec S_ 1 :=
  let main_v0 : FVec F S32x256x64 .f32 := Host.absf main_arg0
  let main_cst : FVec F S_ .f32 := constant S_ .f32 0x7F800000#32
  let main_v1 : FVec F S32x256x64 .f32 := broadcastInDim S32x256x64 ![] bcast_S_S32x256x64 main_cst
  let main_v2 : IVec S32x256x64 1 := cmpf .olt main_v0 main_v1
  let main_c : IVec S_ 1 := constantI S_ 1 1#1
  let main_v3 : IVec S_ 1 := (fun x v => Host.reduce IntOp.andi x v reducesTo_S32x256x64_S_d0_1_2 h_S_) main_v2 main_c
  let main_v4 : FVec F S32x256x64 .f32 := Host.absf main_arg1
  let main_cst_0 : FVec F S_ .f32 := constant S_ .f32 0x7F800000#32
  let main_v5 : FVec F S32x256x64 .f32 := broadcastInDim S32x256x64 ![] bcast_S_S32x256x64 main_cst_0
  let main_v6 : IVec S32x256x64 1 := cmpf .olt main_v4 main_v5
  let main_c_1 : IVec S_ 1 := constantI S_ 1 1#1
  let main_v7 : IVec S_ 1 := (fun x v => Host.reduce IntOp.andi x v reducesTo_S32x256x64_S_d0_1_2 h_S_) main_v6 main_c_1
  let main_v8 : IVec S_ 1 := andi main_v3 main_v7
  let main_v9 : FVec F S32x256x64 .f32 := Host.absf main_arg2
  let main_cst_2 : FVec F S_ .f32 := constant S_ .f32 0x7F800000#32
  let main_v10 : FVec F S32x256x64 .f32 := broadcastInDim S32x256x64 ![] bcast_S_S32x256x64 main_cst_2
  let main_v11 : IVec S32x256x64 1 := cmpf .olt main_v9 main_v10
  let main_c_3 : IVec S_ 1 := constantI S_ 1 1#1
  let main_v12 : IVec S_ 1 := (fun x v => Host.reduce IntOp.andi x v reducesTo_S32x256x64_S_d0_1_2 h_S_) main_v11 main_c_3
  let main_v13 : IVec S_ 1 := andi main_v8 main_v12
  let main_v14 : FVec F S32x256x256x64 .f32 := Host.absf main_arg3
  let main_cst_4 : FVec F S_ .f32 := constant S_ .f32 0x7F800000#32
  let main_v15 : FVec F S32x256x256x64 .f32 := broadcastInDim S32x256x256x64 ![] bcast_S_S32x256x256x64 main_cst_4
  let main_v16 : IVec S32x256x256x64 1 := cmpf .olt main_v14 main_v15
  fn_part1 (F := F) main_arg4 main_v13 main_v16
-- ==== Kernel.lean ====
abbrev S32x256x64 : Shape := ⟨3, ![32, 256, 64]⟩
abbrev S32x256x256x64 : Shape := ⟨4, ![32, 256, 256, 64]⟩
abbrev S32x256x256 : Shape := ⟨3, ![32, 256, 256]⟩
abbrev S1x256x64 : Shape := ⟨3, ![1, 256, 64]⟩
abbrev S1x256x256 : Shape := ⟨3, ![1, 256, 256]⟩
abbrev S256x64 : Shape := ⟨2, ![256, 64]⟩
abbrev S64x256 : Shape := ⟨2, ![64, 256]⟩
abbrev S256x256 : Shape := ⟨2, ![256, 256]⟩
abbrev S256 : Shape := ⟨1, ![256]⟩
abbrev S256x1 : Shape := ⟨2, ![256, 1]⟩
abbrev S1x64x256x64 : Shape := ⟨4, ![1, 64, 256, 64]⟩
abbrev S1x64x64 : Shape := ⟨3, ![1, 64, 64]⟩
abbrev S64x256x64 : Shape := ⟨3, ![64, 256, 64]⟩
abbrev S64x64 : Shape := ⟨2, ![64, 64]⟩
abbrev S32x256x128 : Shape := ⟨3, ![32, 256, 128]⟩

abbrev nBuf : Space → Nat
  | .hbm => 10
  | .vmem => 18
  | .smem => 0
  | _ => 0

abbrev bufTy : (tb : Table) → Fin (tcTables nBuf tb) → BufTy
  | .hbm, ⟨0, _⟩ => ⟨S32x256x64, .f32⟩
  | .hbm, ⟨1, _⟩ => ⟨S32x256x64, .f32⟩
  | .hbm, ⟨2, _⟩ => ⟨S32x256x64, .f32⟩
  | .hbm, ⟨3, _⟩ => ⟨S32x256x256x64, .f32⟩
  | .hbm, ⟨4, _⟩ => ⟨S32x256x256x64, .f32⟩
  | .hbm, ⟨5, _⟩ => ⟨S32x256x256, .i32⟩
  | .hbm, ⟨6, _⟩ => ⟨S32x256x64, .f32⟩
  | .hbm, ⟨7, _⟩ => ⟨S32x256x256, .f32⟩
  | .hbm, ⟨8, _⟩ => ⟨S32x256x64, .f32⟩
  | .hbm, ⟨9, _⟩ => ⟨S32x256x128, .f32⟩
  | .local _ .vmem, ⟨0, _⟩ => ⟨S1x256x64, .f32⟩
  | .local _ .vmem, ⟨1, _⟩ => ⟨S1x256x64, .f32⟩
  | .local _ .vmem, ⟨2, _⟩ => ⟨S1x256x64, .f32⟩
  | .local _ .vmem, ⟨3, _⟩ => ⟨S1x256x64, .f32⟩
  | .local _ .vmem, ⟨4, _⟩ => ⟨S1x256x64, .f32⟩
  | .local _ .vmem, ⟨5, _⟩ => ⟨S1x256x64, .f32⟩
  | .local _ .vmem, ⟨6, _⟩ => ⟨S1x256x256, .i32⟩
  | .local _ .vmem, ⟨7, _⟩ => ⟨S1x256x256, .i32⟩
  | .local _ .vmem, ⟨8, _⟩ => ⟨S1x256x64, .f32⟩
  | .local _ .vmem, ⟨9, _⟩ => ⟨S1x256x64, .f32⟩
  | .local _ .vmem, ⟨10, _⟩ => ⟨S1x256x256, .f32⟩
  | .local _ .vmem, ⟨11, _⟩ => ⟨S1x256x256, .f32⟩
  | .local _ .vmem, ⟨12, _⟩ => ⟨S1x64x256x64, .f32⟩
  | .local _ .vmem, ⟨13, _⟩ => ⟨S1x64x256x64, .f32⟩
  | .local _ .vmem, ⟨14, _⟩ => ⟨S1x64x256x64, .f32⟩
  | .local _ .vmem, ⟨15, _⟩ => ⟨S1x64x256x64, .f32⟩
  | .local _ .vmem, ⟨16, _⟩ => ⟨S1x64x64, .f32⟩
  | .local _ .vmem, ⟨17, _⟩ => ⟨S1x64x64, .f32⟩
  | _, _ => ⟨S32x256x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v1 : Ref sig .tc := ⟨.hbm, 8, rfl⟩
abbrev main_v2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x256 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨2, ![32, 4], ![false, false]⟩

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x64x256x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x64x256x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x64x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  inb_S1x256x64_S1x256x64_0_0_0 : ∀ a, (![0, 0, 0] : Fin 3 → Nat) a + S1x256x64.size a ≤ S1x256x64.size a
  h_S1x256x64 : 0 < S1x256x64.numel
  shapeCasts_S1x256x64_S256x64 : S1x256x64.ShapeCasts S256x64
  bitsLt_bf16_f32 : FTy.bits .bf16 < FTy.bits .f32
  transposes_S256x64_p1_0_S64x256 : S256x64.Transposes [1, 0] S64x256
  inb_S1x256x256_S1x256x256_0_0_0 : ∀ a, (![0, 0, 0] : Fin 3 → Nat) a + S1x256x256.size a ≤ S1x256x256.size a
  h_S1x256x256 : 0 < S1x256x256.numel
  shapeCasts_S1x256x256_S256x256 : S1x256x256.ShapeCasts S256x256
  reduces_S256x256_S256 : S256x256.Reduces [1] S256
  shapeCasts_S256_S256x1 : S256.ShapeCasts S256x1
  broadcasts_S256x1_S256x256 : S256x1.Broadcasts S256x256
  shapeCasts_S256x256_S1x256x256 : S256x256.ShapeCasts S1x256x256
  shapeCasts_S256x64_S1x256x64 : S256x64.ShapeCasts S1x256x64
  inb_S1x64x256x64_S1x64x256x64_0_0_0_0 : ∀ a, (![0, 0, 0, 0] : Fin 4 → Nat) a + S1x64x256x64.size a ≤ S1x64x256x64.size a
  h_S1x64x256x64 : 0 < S1x64x256x64.numel
  shapeCasts_S1x64x256x64_S64x256x64 : S1x64x256x64.ShapeCasts S64x256x64
  reduces_S64x256x64_S64x64 : S64x256x64.Reduces [1] S64x64
  inb_S1x64x64_S1x64x64_0_0_0 : ∀ a, (![0, 0, 0] : Fin 3 → Nat) a + S1x64x64.size a ≤ S1x64x64.size a
  h_S1x64x64 : 0 < S1x64x64.numel
  shapeCasts_S1x64x64_S64x64 : S1x64x64.ShapeCasts S64x64
  shapeCasts_S64x64_S1x64x64 : S64x64.ShapeCasts S1x64x64
  concatenates_S32x256x64_S32x256x64_S32x256x128_d2 : Shape.Concatenates [S32x256x64, S32x256x64] S32x256x128 2
  dot_S256x64_S64x256_S256x256_1_0_0_1_n_n_wf : DotDims.WF S256x64 S64x256 S256x256 [1] [0] [0] [1] [] []
  dot_S256x256_S256x64_S256x64_1_0_0_1_n_n_wf : DotDims.WF S256x256 S256x64 S256x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x64.size a ≤ S32x256x64.size a
  hwx0_0 : ∀ i : grid0.Coords, EltTy.bits .f32 = 32 ∨ (Rect.block (s := S32x256x64) S1x256x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x64.size a ≤ S32x256x64.size a
  hwx0_1 : ∀ i : grid0.Coords, EltTy.bits .f32 = 32 ∨ (Rect.block (s := S32x256x64) S1x256x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x64.size a ≤ S32x256x64.size a
  hwx0_2 : ∀ i : grid0.Coords, EltTy.bits .f32 = 32 ∨ (Rect.block (s := S32x256x64) S1x256x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x256.size a ≤ S32x256x256.size a
  hwx0_3 : ∀ i : grid0.Coords, EltTy.bits .i32 = 32 ∨ (Rect.block (s := S32x256x256) S1x256x256.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256x64.size a ≤ S32x256x64.size a
  hwx0_4 : ∀ i : grid0.Coords, EltTy.bits .f32 = 32 ∨ (Rect.block (s := S32x256x64) S1x256x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256x256.size a ≤ S32x256x256.size a
  hwx0_5 : ∀ i : grid0.Coords, EltTy.bits .f32 = 32 ∨ (Rect.block (s := S32x256x256) S1x256x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x64x256x64.size a ≤ S32x256x256x64.size a
  hwx1_0 : ∀ i : grid1.Coords, EltTy.bits .f32 = 32 ∨ (Rect.block (s := S32x256x256x64) S1x64x256x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x64x256x64.size a ≤ S32x256x256x64.size a
  hwx1_1 : ∀ i : grid1.Coords, EltTy.bits .f32 = 32 ∨ (Rect.block (s := S32x256x256x64) S1x64x256x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x64x64.size a ≤ S32x256x64.size a
  hwx1_2 : ∀ i : grid1.Coords, EltTy.bits .f32 = 32 ∨ (Rect.block (s := S32x256x64) S1x64x64.size (cc1_transform_2 i) (hinb1_2 i)).WholeWords (EltTy.packing .f32)

variable [Facts₀]

def dot_S256x64_S64x256_S256x256_1_0_0_1_n_n : DotDims S256x64 S64x256 S256x256 where
  lhsContracting := [1]
  rhsContracting := [0]
  lhsNonContracting := [0]
  rhsNonContracting := [1]
  lhsBatch := []
  rhsBatch := []
  wf := dot_S256x64_S64x256_S256x256_1_0_0_1_n_n_wf
def dot_S256x256_S256x64_S256x64_1_0_0_1_n_n : DotDims S256x256 S256x64 S256x64 where
  lhsContracting := [1]
  rhsContracting := [0]
  lhsNonContracting := [0]
  rhsNonContracting := [1]
  lhsBatch := []
  rhsBatch := []
  wf := dot_S256x256_S256x64_S256x64_1_0_0_1_n_n_wf

abbrev win0_0 : Pipeline.Window sig grid0 :=
  Pipeline.Window.ofSpec (Memref.whole main_arg0) S1x256x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x256x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x256x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S1x256x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S1x256x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S1x256x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg3) S1x64x256x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S1x64x256x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x64x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S32x256x64 : Shape := ⟨3, ![32, 256, 64]⟩
abbrev S32x256x256x64 : Shape := ⟨4, ![32, 256, 256, 64]⟩
abbrev S32x256x256 : Shape := ⟨3, ![32, 256, 256]⟩
abbrev S_ : Shape := ⟨0, ![]⟩
abbrev S32x256 : Shape := ⟨2, ![32, 256]⟩
abbrev S32x256x1 : Shape := ⟨3, ![32, 256, 1]⟩
abbrev S32x256x128 : Shape := ⟨3, ![32, 256, 128]⟩

abbrev nBuf : Space → Nat
  | .hbm => 38
  | .vmem => 0
  | .smem => 0
  | _ => 0

abbrev bufTy : (tb : Table) → Fin (tcTables nBuf tb) → BufTy
  | .hbm, ⟨0, _⟩ => ⟨S32x256x64, .f32⟩
  | .hbm, ⟨1, _⟩ => ⟨S32x256x64, .f32⟩
  | .hbm, ⟨2, _⟩ => ⟨S32x256x64, .f32⟩
  | .hbm, ⟨3, _⟩ => ⟨S32x256x256x64, .f32⟩
  | .hbm, ⟨4, _⟩ => ⟨S32x256x256x64, .f32⟩
  | .hbm, ⟨5, _⟩ => ⟨S32x256x256, .i32⟩
  | .hbm, ⟨6, _⟩ => ⟨S32x256x256, .f32⟩
  | .hbm, ⟨7, _⟩ => ⟨S_, .f32⟩
  | .hbm, ⟨8, _⟩ => ⟨S32x256x256, .f32⟩
  | .hbm, ⟨9, _⟩ => ⟨S32x256x256, .f32⟩
  | .hbm, ⟨10, _⟩ => ⟨S_, .i32⟩
  | .hbm, ⟨11, _⟩ => ⟨S32x256x256, .i32⟩
  | .hbm, ⟨12, _⟩ => ⟨S32x256x256, .i1⟩
  | .hbm, ⟨13, _⟩ => ⟨S_, .f32⟩
  | .hbm, ⟨14, _⟩ => ⟨S32x256x256, .f32⟩
  | .hbm, ⟨15, _⟩ => ⟨S32x256x256, .f32⟩
  | .hbm, ⟨16, _⟩ => ⟨S_, .f32⟩
  | .hbm, ⟨17, _⟩ => ⟨S32x256, .f32⟩
  | .hbm, ⟨18, _⟩ => ⟨S_, .f32⟩
  | .hbm, ⟨19, _⟩ => ⟨S32x256, .f32⟩
  | .hbm, ⟨20, _⟩ => ⟨S32x256, .f32⟩
  | .hbm, ⟨21, _⟩ => ⟨S32x256x1, .f32⟩
  | .hbm, ⟨22, _⟩ => ⟨S32x256x256, .f32⟩
  | .hbm, ⟨23, _⟩ => ⟨S32x256x256, .f32⟩
  | .hbm, ⟨24, _⟩ => ⟨S32x256x256, .f32⟩
  | .hbm, ⟨25, _⟩ => ⟨S_, .f32⟩
  | .hbm, ⟨26, _⟩ => ⟨S32x256, .f32⟩
  | .hbm, ⟨27, _⟩ => ⟨S32x256x1, .f32⟩
  | .hbm, ⟨28, _⟩ => ⟨S32x256x256, .f32⟩
  | .hbm, ⟨29, _⟩ => ⟨S32x256x256, .f32⟩
  | .hbm, ⟨30, _⟩ => ⟨S32x256x64, .f32⟩
  | .hbm, ⟨31, _⟩ => ⟨S32x256x256x64, .f32⟩
  | .hbm, ⟨32, _⟩ => ⟨S_, .f32⟩
  | .hbm, ⟨33, _⟩ => ⟨S32x256x64, .f32⟩
  | .hbm, ⟨34, _⟩ => ⟨S_, .f32⟩
  | .hbm, ⟨35, _⟩ => ⟨S32x256x64, .f32⟩
  | .hbm, ⟨36, _⟩ => ⟨S32x256x64, .f32⟩
  | .hbm, ⟨37, _⟩ => ⟨S32x256x128, .f32⟩
  | _, _ => ⟨S32x256x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_call0_v0 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_cst_2 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_3 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_cst_5 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩

abbrev nD : Nat := 1
abbrev τ : Topo := Topo.v7x

variable {F : FTy → Type} [FloatOps F]

class Facts₀ : Prop where
  bcast_S_S32x256x256 : S_.BroadcastsInDim S32x256x256 (![] : Fin 0 → Fin S32x256x256.rank)
  reducesTo_S32x256x256_S32x256_d2 : S32x256x256.ReducesTo [2] S32x256
  h_S_ : 0 < S_.numel
  bcast_S_S32x256 : S_.BroadcastsInDim S32x256 (![] : Fin 0 → Fin S32x256.rank)
  bcast_S32x256_S32x256x1_0_1 : S32x256.BroadcastsInDim S32x256x1 (![0, 1] : Fin 2 → Fin S32x256x1.rank)
  bcast_S32x256x1_S32x256x256_0_1_2 : S32x256x1.BroadcastsInDim S32x256x256 (![0, 1, 2] : Fin 3 → Fin S32x256x256.rank)
  reducesTo_S32x256x256x64_S32x256x64_d2 : S32x256x256x64.ReducesTo [2] S32x256x64
  bcast_S_S32x256x64 : S_.BroadcastsInDim S32x256x64 (![] : Fin 0 → Fin S32x256x64.rank)
  concatenates_S32x256x64_S32x256x64_S32x256x128_d2 : Shape.Concatenates [S32x256x64, S32x256x64] S32x256x128 2
  dot_S32x256x64_S32x256x64_S32x256x256_2_2_1_1_0_0_wf : DotDims.WF S32x256x64 S32x256x64 S32x256x256 [2] [2] [1] [1] [0] [0]
  dot_S32x256x256_S32x256x64_S32x256x64_2_1_1_2_0_0_wf : DotDims.WF S32x256x256 S32x256x64 S32x256x64 [2] [1] [1] [2] [0] [0]

variable [Facts₀]

def dot_S32x256x64_S32x256x64_S32x256x256_2_2_1_1_0_0 : DotDims S32x256x64 S32x256x64 S32x256x256 where
  lhsContracting := [2]
  rhsContracting := [2]
  lhsNonContracting := [1]
  rhsNonContracting := [1]
  lhsBatch := [0]
  rhsBatch := [0]
  wf := dot_S32x256x64_S32x256x64_S32x256x256_2_2_1_1_0_0_wf
def dot_S32x256x256_S32x256x64_S32x256x64_2_1_1_2_0_0 : DotDims S32x256x256 S32x256x64 S32x256x64 where
  lhsContracting := [2]
  rhsContracting := [1]
  lhsNonContracting := [1]
  rhsNonContracting := [2]
  lhsBatch := [0]
  rhsBatch := [0]
  wf := dot_S32x256x256_S32x256x64_S32x256x64_2_1_1_2_0_0_wf

class Facts : Prop extends Facts₀ where

variable [Facts]
-- ==== Proof.AttnSpec.lean ====
/-
  What the two programs compute, as functions of the argument arrays over the extended reals.

  For a batch b, a query row q and a key row k:
    score b q k   = (Σ_d Q[b,q,d] · K[b,k,d]) · (1/8)
    masked b q k  = the large negative fill where the mask is zero, the score elsewhere
    rowMax b q    = max over k of masked b q k (taken from -∞, and once more against -∞)
    weight b q k  = exp (masked b q k - rowMax b q)
    total b q     = Σ_k weight b q k
    attn b q k    = weight b q k / total b q
    mixed b q d   = Σ_k attn b q k · V[b,k,d]
    pairMean b q d = (Σ_j sa[b,q,j,d] · sv[b,q,j,d]) · (1/256)
  The first result is mixed and pairMean side by side along the last axis; the second is attn.

  One program multiplies by the powers of two 1/8 and 1/256 where the other divides by 8 and by 256: on the extended
  reals a quotient by a nonzero real is the product with its reciprocal, at the infinities too (div_eighth,
  div_256th). The float words of these four numbers are evaluated here, once.
-/
import Idealize.ShloMosaic.PureOps.Ideal.Laws
import Idealize.ShloMosaic.Lib.ValueIdx

noncomputable section

namespace Cert.Attn

open Idealize.ShloMosaic Idealize.ShloMosaic.ValueIdx

/-- Queries, keys, values, and each half of the first result: [32, 256, 64]. -/
abbrev SQ : Shape := ⟨3, ![32, 256, 64]⟩
/-- The mask and the attention weights: [32, 256, 256]. -/
abbrev SA : Shape := ⟨3, ![32, 256, 256]⟩
/-- The two pairwise operands: [32, 256, 256, 64]. -/
abbrev SS : Shape := ⟨4, ![32, 256, 256, 64]⟩

section Rows

variable (Q K V : SQ.Idx → EReal) (M : SA.Idx → BitVec 32)

/-- The scaled inner product of query row q and key row k of batch b. -/
def score (b : Fin 32) (q k : Fin 256) : EReal :=
  (∑ d : Fin 64, Q (ix3 b q d) * K (ix3 b k d)) * Ideal.ofBits .f32 0x3E000000#32

/-- The score, replaced by the fill where the mask is zero. -/
def masked (b : Fin 32) (q k : Fin 256) : EReal :=
  Scalar.select (IntOp.cmpi .eq (M (ix3 b q k)) 0#32) (Ideal.ofBits .f32 0xCE6E6B28#32) (score Q K b q k)

/-- The maximum of a row of masked scores. -/
def rowMax (b : Fin 32) (q : Fin 256) : EReal :=
  max (Ideal.ofBits .f32 0xFF800000#32)
    ((Finset.univ : Finset (Fin 256)).fold max (Ideal.ofBits .f32 0xFF800000#32) (fun k => masked Q K M b q k))

/-- The exponential of a masked score less its row's maximum. -/
def weight (b : Fin 32) (q k : Fin 256) : EReal := Ideal.exp (masked Q K M b q k - rowMax Q K M b q)

/-- The sum of a row of weights. -/
def total (b : Fin 32) (q : Fin 256) : EReal := ∑ k : Fin 256, weight Q K M b q k

/-- The attention weight: a weight over its row's total. -/
def attn (b : Fin 32) (q k : Fin 256) : EReal := Ideal.div (weight Q K M b q k) (total Q K M b q)

/-- The attention-weighted sum of the value rows. -/
def mixed (b : Fin 32) (q : Fin 256) (d : Fin 64) : EReal := ∑ k : Fin 256, attn Q K M b q k * V (ix3 b k d)

/-- The attention weights as an array. -/
def attnArr : SA.Idx → EReal :=
  fun i => attn Q K M ⟨(i 0).val, (i 0).isLt⟩ ⟨(i 1).val, (i 1).isLt⟩ ⟨(i 2).val, (i 2).isLt⟩

/-- The weighted sums as an array. -/
def mixedArr : SQ.Idx → EReal :=
  fun i => mixed Q K V M ⟨(i 0).val, (i 0).isLt⟩ ⟨(i 1).val, (i 1).isLt⟩ ⟨(i 2).val, (i 2).isLt⟩

theorem attnArr_ix3 (b : Fin 32) (q k : Fin 256) : attnArr Q K M (ix3 b q k) = attn Q K M b q k := rfl
theorem mixedArr_ix3 (b : Fin 32) (q : Fin 256) (d : Fin 64) : mixedArr Q K V M (ix3 b q d) = mixed Q K V M b q d := rfl

end Rows

section Pairs

variable (sa sv : SS.Idx → EReal)

/-- The mean over j of the products sa[b,q,j,d] · sv[b,q,j,d]. -/
def pairMean (b : Fin 32) (q : Fin 256) (d : Fin 64) : EReal :=
  (∑ j : Fin 256, sa (ix4 b q j d) * sv (ix4 b q j d)) * Ideal.ofBits .f32 0x3B800000#32

/-- The means as an array. -/
def pairMeanArr : SQ.Idx → EReal :=
  fun i => pairMean sa sv ⟨(i 0).val, (i 0).isLt⟩ ⟨(i 1).val, (i 1).isLt⟩ ⟨(i 2).val, (i 2).isLt⟩

theorem pairMeanArr_ix3 (b : Fin 32) (q : Fin 256) (d : Fin 64) : pairMeanArr sa sv (ix3 b q d) = pairMean sa sv b q d := rfl

end Pairs

/-! ## The four float words -/

theorem ofBits_eight : Ideal.ofBits .f32 0x41000000#32 = ((8 : ℝ) : EReal) := by
  simp [Ideal.ofBits, Ideal.ieee, -EReal.coe_mul]; norm_num
theorem ofBits_eighth : Ideal.ofBits .f32 0x3E000000#32 = ((1 / 8 : ℝ) : EReal) := by
  simp [Ideal.ofBits, Ideal.ieee, -EReal.coe_mul]; norm_num
theorem ofBits_256 : Ideal.ofBits .f32 0x43800000#32 = ((256 : ℝ) : EReal) := by
  simp [Ideal.ofBits, Ideal.ieee, -EReal.coe_mul]; norm_num
theorem ofBits_256th : Ideal.ofBits .f32 0x3B800000#32 = ((1 / 256 : ℝ) : EReal) := by
  simp [Ideal.ofBits, Ideal.ieee, -EReal.coe_mul]; norm_num

/-- Dividing by the word of 8 is multiplying by the word of 1/8, on every extended real. -/
theorem div_eighth (x : EReal) : Ideal.div x (Ideal.ofBits .f32 0x41000000#32) = x * Ideal.ofBits .f32 0x3E000000#32 := by
  rw [ofBits_eight, ofBits_eighth, Ideal.div_coe (by norm_num : (8 : ℝ) ≠ 0)]

/-- Dividing by the word of 256 is multiplying by the word of 1/256, on every extended real. -/
theorem div_256th (x : EReal) : Ideal.div x (Ideal.ofBits .f32 0x43800000#32) = x * Ideal.ofBits .f32 0x3B800000#32 := by
  rw [ofBits_256, ofBits_256th, Ideal.div_coe (by norm_num : (256 : ℝ) ≠ 0)]

end Cert.Attn

end
-- ==== Proof.RefValue.lean ====
/-
  The reference program's stages, read index by index, are the specification's arrays.

  Each stage of the reference is read at an index whose coordinates are named: the inner product of a query row and a
  key row divided by 8 is the scaled score (a quotient by 8 is the product with 1/8); the select on "mask is zero"
  gives the masked score; the maximum over the key axis, taken from -∞ and once more against -∞, is the row maximum;
  the exponential of the difference is the weight; the sum over the key axis from zero is the total; the quotient is
  the attention weight, and its inner product with the value rows is the mixed row. The pairwise half is the sum over
  the third axis of the products, from zero, divided by 256 (the product with 1/256).
-/
import proofs.«108301_j15788299780171_1_alg».proof.Proof.RefReadP
import proofs.«108301_j15788299780171_1_alg».proof.Proof.AttnSpec

noncomputable section

namespace Cert.ReferenceIdeal.RefValue

open Cert.ReferenceIdeal Cert.ReferenceIdeal.ReadP Idealize.ShloMosaic Idealize.ShloMosaic.ValueIdx

/-! ## The indices the stages read, by coordinates -/

theorem lidx_v0_ix (b : Fin 32) (q k : Fin 256) (d : Fin 64) : lidx_main_v0 (ix3 b q k) d = ix3 b q d :=
  funext fun a => Fin.ext (by match a with | ⟨0, _⟩ => rfl | ⟨1, _⟩ => rfl | ⟨2, _⟩ => rfl)
theorem ridx_v0_ix (b : Fin 32) (q k : Fin 256) (d : Fin 64) : ridx_main_v0 (ix3 b q k) d = ix3 b k d :=
  funext fun a => Fin.ext (by match a with | ⟨0, _⟩ => rfl | ⟨1, _⟩ => rfl | ⟨2, _⟩ => rfl)

/-! ## The scaled and the masked score -/

/-- The inner product divided by 8 is the scaled score. -/
theorem scaled_at (x0 x1 : (⟨S32x256x64, .f32⟩ : BufTy).Contents (Elt Ideal)) (b : Fin 32) (q k : Fin 256) :
    val_main_v2 (F := Ideal) x0 x1 (ix3 b q k) = Cert.Attn.score x0 x1 b q k := by
  rw [val_main_v2_apply, val_main_v0_apply, val_main_v1_apply, val_main_cst_apply]
  simp only [Ideal.hostDivf_def, Ideal.ofBits_def, lidx_v0_ix, ridx_v0_ix]
  rw [Cert.Attn.div_eighth]
  rfl

/-- The select on "the mask is zero" between the fill and the scaled score is the masked score. -/
theorem masked_at (x0 x1 : (⟨S32x256x64, .f32⟩ : BufTy).Contents (Elt Ideal))
    (x5 : (⟨S32x256x256, .i32⟩ : BufTy).Contents (Elt Ideal)) (b : Fin 32) (q k : Fin 256) :
    val_main_v5 (F := Ideal) x0 x1 x5 (ix3 b q k) = Cert.Attn.masked x0 x1 x5 b q k := by
  rw [val_main_v5_apply, val_main_v4_apply, val_main_v3_apply, val_main_c_apply, val_main_call0_v0_apply,
    val_main_cst_0_apply, scaled_at]
  rfl

/-! ## The row maximum -/

/-- The reduced index (p, q) with coordinate k put back on the last axis is (p, q, k). -/
theorem lift_last {a b c : ℕ} (h : (⟨3, ![a, b, c]⟩ : Shape).Reduces [2] (⟨2, ![a, b]⟩ : Shape)) (p : Fin a) (q : Fin b)
    (k : Fin ((⟨3, ![a, b, c]⟩ : Shape).size 2)) : h.lift (ix2 p q) k = ix3 p q (⟨k.val, k.isLt⟩ : Fin c) := by
  funext d; apply Fin.ext
  fin_cases d <;> rfl

/-- A reduction with a maximum body over the last axis of an [a, b, c] array, read at (p, q), is the fold of max, from
    the initial value, over the c entries (p, q, ·): max on the extended reals commutes and associates, so the order
    in which the entries are taken does not matter. -/
theorem hostReduce_max_last {a b c : ℕ} (x : (⟨3, ![a, b, c]⟩ : Shape).Idx → EReal) (init : (⟨0, ![]⟩ : Shape).Idx → EReal)
    (h' : (⟨3, ![a, b, c]⟩ : Shape).ReducesTo [2] (⟨2, ![a, b]⟩ : Shape))
    (h : (⟨3, ![a, b, c]⟩ : Shape).Reduces [2] (⟨2, ![a, b]⟩ : Shape)) (hu : 0 < (⟨0, ![]⟩ : Shape).numel) (p : Fin a) (q : Fin b) :
    Host.reduce (FloatOps.maximumf (F := Ideal) (φ := .f32)) x init h' hu (ix2 p q)
      = (Finset.univ : Finset (Fin c)).fold max (init (Shape.Idx.first hu)) (fun k => x (ix3 p q k)) := by
  refine (Host.reduce_eq_fold_single (FloatOps.maximumf (F := Ideal) (φ := .f32)) x init h' h hu (ix2 p q)).trans ?_
  exact congrArg (fun f => Finset.fold max (init (Shape.Idx.first hu)) f (Finset.univ : Finset (Fin c)))
    (funext fun k => congrArg x (lift_last h p q k))

/-- The maximum over the key axis from -∞, taken once more against -∞, is the row maximum. -/
theorem rowMax_at (x0 x1 : (⟨S32x256x64, .f32⟩ : BufTy).Contents (Elt Ideal))
    (x5 : (⟨S32x256x256, .i32⟩ : BufTy).Contents (Elt Ideal)) (b : Fin 32) (q : Fin 256) :
    val_main_v8 (F := Ideal) x0 x1 x5 (ix2 b q) = Cert.Attn.rowMax x0 x1 x5 b q := by
  rw [val_main_v8_apply, val_main_v7_apply, val_main_cst_2_apply]
  unfold val_main_v6
  rw [hostReduce_max_last _ _ _ (by decide) _ b q]
  simp only [masked_at, val_main_cst_1_apply]
  rfl

/-! ## The weights, their total, and the attention weights -/

theorem idx_v10_ix (b : Fin 32) (q k : Fin 256) : idx_main_v10 (ix3 b q k) = ix3 b q (0 : Fin 1) :=
  funext fun a => Fin.ext (by match a with | ⟨0, _⟩ => rfl | ⟨1, _⟩ => rfl | ⟨2, _⟩ => rfl)
theorem idx_v9_ix (b : Fin 32) (q : Fin 256) (z : Fin 1) : idx_main_v9 (ix3 b q z) = ix2 b q :=
  funext fun a => Fin.ext (by match a with | ⟨0, _⟩ => rfl | ⟨1, _⟩ => rfl)
theorem idx_v13_ix (b : Fin 32) (q k : Fin 256) : idx_main_v13 (ix2 b q) k = ix3 b q k :=
  funext fun a => Fin.ext (by match a with | ⟨0, _⟩ => rfl | ⟨1, _⟩ => rfl | ⟨2, _⟩ => rfl)
theorem idx_v15_ix (b : Fin 32) (q k : Fin 256) : idx_main_v15 (ix3 b q k) = ix3 b q (0 : Fin 1) :=
  funext fun a => Fin.ext (by match a with | ⟨0, _⟩ => rfl | ⟨1, _⟩ => rfl | ⟨2, _⟩ => rfl)
theorem idx_v14_ix (b : Fin 32) (q : Fin 256) (z : Fin 1) : idx_main_v14 (ix3 b q z) = ix2 b q :=
  funext fun a => Fin.ext (by match a with | ⟨0, _⟩ => rfl | ⟨1, _⟩ => rfl)

/-- The exponential of the masked score less its row's maximum is the weight. -/
theorem weight_at (x0 x1 : (⟨S32x256x64, .f32⟩ : BufTy).Contents (Elt Ideal))
    (x5 : (⟨S32x256x256, .i32⟩ : BufTy).Contents (Elt Ideal)) (b : Fin 32) (q k : Fin 256) :
    val_main_v12 (F := Ideal) x0 x1 x5 (ix3 b q k) = Cert.Attn.weight x0 x1 x5 b q k := by
  rw [val_main_v12_apply, val_main_v11_apply, val_main_v10_apply, idx_v10_ix, val_main_v9_apply, idx_v9_ix, masked_at,
    rowMax_at]
  rfl

/-- The sum over the key axis from the zero word is the row's total. -/
theorem total_at (x0 x1 : (⟨S32x256x64, .f32⟩ : BufTy).Contents (Elt Ideal))
    (x5 : (⟨S32x256x256, .i32⟩ : BufTy).Contents (Elt Ideal)) (b : Fin 32) (q : Fin 256) :
    val_main_v13 (F := Ideal) x0 x1 x5 (ix2 b q) = Cert.Attn.total x0 x1 x5 b q := by
  rw [val_main_v13_apply, val_main_cst_3_apply]
  simp only [idx_v13_ix, weight_at, Ideal.ofBits_def, Ideal.ofBits_zero_f32, zero_add]
  rfl

/-- The weight over its row's total is the attention weight. -/
theorem attn_at (x0 x1 : (⟨S32x256x64, .f32⟩ : BufTy).Contents (Elt Ideal))
    (x5 : (⟨S32x256x256, .i32⟩ : BufTy).Contents (Elt Ideal)) (b : Fin 32) (q k : Fin 256) :
    val_main_v16 (F := Ideal) x0 x1 x5 (ix3 b q k) = Cert.Attn.attn x0 x1 x5 b q k := by
  rw [val_main_v16_apply, val_main_v15_apply, idx_v15_ix, val_main_v14_apply, idx_v14_ix, weight_at, total_at]
  rfl

/-! ## The mixed rows -/

theorem lidx_v17_ix (b : Fin 32) (q : Fin 256) (d : Fin 64) (k : Fin 256) : lidx_main_v17 (ix3 b q d) k = ix3 b q k :=
  funext fun a => Fin.ext (by match a with | ⟨0, _⟩ => rfl | ⟨1, _⟩ => rfl | ⟨2, _⟩ => rfl)
theorem ridx_v17_ix (b : Fin 32) (q : Fin 256) (d : Fin 64) (k : Fin 256) : ridx_main_v17 (ix3 b q d) k = ix3 b k d :=
  funext fun a => Fin.ext (by match a with | ⟨0, _⟩ => rfl | ⟨1, _⟩ => rfl | ⟨2, _⟩ => rfl)

/-- The inner product of a row of attention weights with a column of the values is the mixed entry. -/
theorem mixed_at (x0 x1 x2 : (⟨S32x256x64, .f32⟩ : BufTy).Contents (Elt Ideal))
    (x5 : (⟨S32x256x256, .i32⟩ : BufTy).Contents (Elt Ideal)) (b : Fin 32) (q : Fin 256) (d : Fin 64) :
    val_main_v17 (F := Ideal) x0 x1 x2 x5 (ix3 b q d) = Cert.Attn.mixed x0 x1 x2 x5 b q d := by
  rw [val_main_v17_apply]
  simp only [lidx_v17_ix, ridx_v17_ix, attn_at]
  rfl

/-! ## The pairwise means -/

theorem idx_v19_ix (b : Fin 32) (q : Fin 256) (d : Fin 64) (j : Fin 256) : idx_main_v19 (ix3 b q d) j = ix4 b q j d :=
  funext fun a => Fin.ext (by match a with | ⟨0, _⟩ => rfl | ⟨1, _⟩ => rfl | ⟨2, _⟩ => rfl | ⟨3, _⟩ => rfl)

/-- The sum over the third axis of the products, from the zero word, divided by 256 is the pairwise mean. -/
theorem pairMean_at (x3 x4 : (⟨S32x256x256x64, .f32⟩ : BufTy).Contents (Elt Ideal)) (b : Fin 32) (q : Fin 256) (d : Fin 64) :
    val_main_v21 (F := Ideal) x3 x4 (ix3 b q d) = Cert.Attn.pairMean x3 x4 b q d := by
  rw [val_main_v21_apply, val_main_v20_apply, val_main_cst_5_apply, val_main_v19_apply, val_main_cst_4_apply]
  simp only [Ideal.hostDivf_def, Ideal.ofBits_def, Ideal.ofBits_zero_f32, zero_add, idx_v19_ix, val_main_v18_apply,
    Ideal.mulf_def]
  rw [Cert.Attn.div_256th]
  rfl

/-! ## The three stages as arrays -/

/-- The reference's attention weights are the specification's. -/
theorem attn_eq (x0 x1 : (⟨S32x256x64, .f32⟩ : BufTy).Contents (Elt Ideal))
    (x5 : (⟨S32x256x256, .i32⟩ : BufTy).Contents (Elt Ideal)) :
    val_main_v16 (F := Ideal) x0 x1 x5 = Cert.Attn.attnArr x0 x1 x5 := by
  funext i
  obtain ⟨b, q, k, rfl⟩ : ∃ (b : Fin 32) (q k : Fin 256), i = ix3 b q k := ⟨i 0, i 1, i 2, eq_ix3 i⟩
  rw [attn_at, Cert.Attn.attnArr_ix3]

/-- The reference's mixed rows are the specification's. -/
theorem mixed_eq (x0 x1 x2 : (⟨S32x256x64, .f32⟩ : BufTy).Contents (Elt Ideal))
    (x5 : (⟨S32x256x256, .i32⟩ : BufTy).Contents (Elt Ideal)) :
    val_main_v17 (F := Ideal) x0 x1 x2 x5 = Cert.Attn.mixedArr x0 x1 x2 x5 := by
  funext i
  obtain ⟨b, q, d, rfl⟩ : ∃ (b : Fin 32) (q : Fin 256) (d : Fin 64), i = ix3 b q d := ⟨i 0, i 1, i 2, eq_ix3 i⟩
  rw [mixed_at, Cert.Attn.mixedArr_ix3]

/-- The reference's pairwise means are the specification's. -/
theorem pairMean_eq (x3 x4 : (⟨S32x256x256x64, .f32⟩ : BufTy).Contents (Elt Ideal)) :
    val_main_v21 (F := Ideal) x3 x4 = Cert.Attn.pairMeanArr x3 x4 := by
  funext i
  obtain ⟨b, q, d, rfl⟩ : ∃ (b : Fin 32) (q : Fin 256) (d : Fin 64), i = ix3 b q d := ⟨i 0, i 1, i 2, eq_ix3 i⟩
  rw [pairMean_at, Cert.Attn.pairMeanArr_ix3]

end Cert.ReferenceIdeal.RefValue

end
-- ==== Proof.KernelRun.lean ====
/-
  The idealized kernel's run with every buffer named.

  @main is two kernel regions followed by one host line. The run below is the same launch over the same three segments
  as the frame's; what it keeps of the final state is more: every unscoped buffer of each core ends at the contents the
  fold through the segments gives it (the region's arrays at what the write-backs leave, the host line's result at the
  operation's value). The value lemmas read the two results off this fold.
-/
import proofs.«108301_j15788299780171_1_alg».proof.Proof.Gen.KernelIdeal.Frame

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault, and in the final state every unscoped buffer of
    every core holds what the fold through the two regions and the host line gives it. -/
theorem run_contents : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h => h)

end Cert.KernelIdeal.Whole

end
-- ==== Proof.AttnArray.lean ====
/-
  Region 0, from blocks to arrays.

  The attention region runs once per batch b: its four input windows hold, at point b, the rows Q[b], K[b], V[b] and
  M[b] of the argument arrays (block index (b, 0, 0), so the element (0, q, d) of a block is the element (b, q, d) of
  its array), and its two output windows write back, at point b, the rows b of the two result arrays. Given what the
  body stores, index by index, as a function of the arrays the blocks are rows of (the two hypotheses below), every
  index of a result array lies in the block of the point numbered by its first coordinate, so after the region the two
  arrays are the specification's weighted sums and attention weights of the argument arrays.
-/
import proofs.«108301_j15788299780171_1_alg».proof.Proof.Gen.KernelIdeal.Frame
import proofs.«108301_j15788299780171_1_alg».proof.Proof.AttnSpec
import Idealize.ShloMosaic.Lib.Pipeline.Value
import Idealize.ShloMosaic.Lib.ValueIdx

set_option maxRecDepth 16384

noncomputable section

namespace Cert.KernelIdeal.AttnArray

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

/-- What the body stores into the attention window, at (0, q, k), when its blocks are rows b of Q, K and M. -/
def WeightsStored : Prop :=
  ∀ (x0 x1 : Vec Ideal S1x256x64 .f32) (x3 : Vec Ideal S1x256x256 .i32)
    (Q K : Cert.Attn.SQ.Idx → EReal) (M : Cert.Attn.SA.Idx → BitVec 32) (b : Fin 32),
    (∀ (q : Fin 256) (d : Fin 64), x0 (ix3 (0 : Fin 1) q d) = Q (ix3 b q d)) →
    (∀ (k : Fin 256) (d : Fin 64), x1 (ix3 (0 : Fin 1) k d) = K (ix3 b k d)) →
    (∀ (q k : Fin 256), x3 (ix3 (0 : Fin 1) q k) = M (ix3 b q k)) →
    ∀ (q k : Fin 256), k0_pay4 (F := Ideal) x0 x1 x3 (ix3 (0 : Fin 1) q k) = Cert.Attn.attn Q K M b q k

/-- What the body stores into the weighted-sum window, at (0, q, d), when its blocks are rows b of Q, K, V and M. -/
def MixedStored : Prop :=
  ∀ (x0 x1 x2 : Vec Ideal S1x256x64 .f32) (x3 : Vec Ideal S1x256x256 .i32)
    (Q K V : Cert.Attn.SQ.Idx → EReal) (M : Cert.Attn.SA.Idx → BitVec 32) (b : Fin 32),
    (∀ (q : Fin 256) (d : Fin 64), x0 (ix3 (0 : Fin 1) q d) = Q (ix3 b q d)) →
    (∀ (k : Fin 256) (d : Fin 64), x1 (ix3 (0 : Fin 1) k d) = K (ix3 b k d)) →
    (∀ (k : Fin 256) (d : Fin 64), x2 (ix3 (0 : Fin 1) k d) = V (ix3 b k d)) →
    (∀ (q k : Fin 256), x3 (ix3 (0 : Fin 1) q k) = M (ix3 b q k)) →
    ∀ (q : Fin 256) (d : Fin 64),
      k0_pay1 (F := Ideal) (k0_pay3 (F := Ideal) x0 x1 x3 x2) (ix3 (0 : Fin 1) q d) = Cert.Attn.mixed Q K V M b q d

variable (m : (ℓ : Loc nD τ sig) → Buf (Elt Ideal) ℓ) (ρ : Dev nD → PrngReg)

/-- The argument arrays of core c, as the specification's functions. -/
abbrev argQ (c : Dev nD) : Cert.Attn.SQ.Idx → EReal := m ((c : Thread nD τ).loc main_arg0)
abbrev argK (c : Dev nD) : Cert.Attn.SQ.Idx → EReal := m ((c : Thread nD τ).loc main_arg1)
abbrev argV (c : Dev nD) : Cert.Attn.SQ.Idx → EReal := m ((c : Thread nD τ).loc main_arg2)
abbrev argM (c : Dev nD) : Cert.Attn.SA.Idx → BitVec 32 := m ((c : Thread nD τ).loc main_arg5)

theorem hz3 : (![0, 0, 0] : Fin 3 → Nat) = fun _ => 0 := funext fun a => by fin_cases a <;> rfl

/-- The batch a grid point is. -/
def batch (t : Fin cfg0.N) : Fin 32 := ⟨t.val, lt_of_lt_of_eq t.isLt N_0⟩

/-- The printed index maps over the grid: every window's block index at point t is (t, 0, 0). -/
theorem idx_facts : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_3.index t (0 : Fin 3) = t.val ∧ win0_3.index t (1 : Fin 3) = 0 ∧ win0_3.index t (2 : Fin 3) = 0)
    ∧ (win0_4.index t (0 : Fin 3) = t.val ∧ win0_4.index t (1 : Fin 3) = 0 ∧ win0_4.index t (2 : Fin 3) = 0)
    ∧ (win0_5.index t (0 : Fin 3) = t.val ∧ win0_5.index t (1 : Fin 3) = 0 ∧ win0_5.index t (2 : Fin 3) = 0) :=
  (by decide +kernel : ∀ t : Fin grid0.N, _)

/-! ## The input blocks are rows of the argument arrays -/

theorem read0 (c : Dev nD) (t : Fin cfg0.N) (q : Fin 256) (d : Fin 64) :
    iblk0 (V0 m ρ) c 0 t (ix3 (0 : Fin 1) q d) = argQ m c (ix3 (batch t) q d) := by
  obtain ⟨⟨e0, e1, e2⟩, -⟩ := idx_facts t
  show m ((c : Thread nD τ).loc main_arg0) (((cfg0.win 0).blk t).view.emb (ix3 (0 : Fin 1) q d)) = _
  refine congrArg (m ((c : Thread nD τ).loc main_arg0)) (funext fun a => Fin.ext ?_)
  match a with
  | ⟨0, _⟩ => show win0_0.index t (0 : Fin 3) * 1 + 1 * 0 = t.val; omega
  | ⟨1, _⟩ => show win0_0.index t (1 : Fin 3) * 256 + 1 * q.val = q.val; omega
  | ⟨2, _⟩ => show win0_0.index t (2 : Fin 3) * 64 + 1 * d.val = d.val; omega

theorem read1 (c : Dev nD) (t : Fin cfg0.N) (k : Fin 256) (d : Fin 64) :
    iblk0 (V0 m ρ) c 1 t (ix3 (0 : Fin 1) k d) = argK m c (ix3 (batch t) k d) := by
  obtain ⟨-, ⟨e0, e1, e2⟩, -⟩ := idx_facts t
  show m ((c : Thread nD τ).loc main_arg1) (((cfg0.win 1).blk t).view.emb (ix3 (0 : Fin 1) k d)) = _
  refine congrArg (m ((c : Thread nD τ).loc main_arg1)) (funext fun a => Fin.ext ?_)
  match a with
  | ⟨0, _⟩ => show win0_1.index t (0 : Fin 3) * 1 + 1 * 0 = t.val; omega
  | ⟨1, _⟩ => show win0_1.index t (1 : Fin 3) * 256 + 1 * k.val = k.val; omega
  | ⟨2, _⟩ => show win0_1.index t (2 : Fin 3) * 64 + 1 * d.val = d.val; omega

theorem read2 (c : Dev nD) (t : Fin cfg0.N) (k : Fin 256) (d : Fin 64) :
    iblk0 (V0 m ρ) c 2 t (ix3 (0 : Fin 1) k d) = argV m c (ix3 (batch t) k d) := by
  obtain ⟨-, -, ⟨e0, e1, e2⟩, -⟩ := idx_facts t
  show m ((c : Thread nD τ).loc main_arg2) (((cfg0.win 2).blk t).view.emb (ix3 (0 : Fin 1) k d)) = _
  refine congrArg (m ((c : Thread nD τ).loc main_arg2)) (funext fun a => Fin.ext ?_)
  match a with
  | ⟨0, _⟩ => show win0_2.index t (0 : Fin 3) * 1 + 1 * 0 = t.val; omega
  | ⟨1, _⟩ => show win0_2.index t (1 : Fin 3) * 256 + 1 * k.val = k.val; omega
  | ⟨2, _⟩ => show win0_2.index t (2 : Fin 3) * 64 + 1 * d.val = d.val; omega

theorem read3 (c : Dev nD) (t : Fin cfg0.N) (q k : Fin 256) :
    iblk0 (V0 m ρ) c 3 t (ix3 (0 : Fin 1) q k) = argM m c (ix3 (batch t) q k) := by
  obtain ⟨-, -, -, ⟨e0, e1, e2⟩, -⟩ := idx_facts t
  show m ((c : Thread nD τ).loc main_arg5) (((cfg0.win 3).blk t).view.emb (ix3 (0 : Fin 1) q k)) = _
  refine congrArg (m ((c : Thread nD τ).loc main_arg5)) (funext fun a => Fin.ext ?_)
  match a with
  | ⟨0, _⟩ => show win0_3.index t (0 : Fin 3) * 1 + 1 * 0 = t.val; omega
  | ⟨1, _⟩ => show win0_3.index t (1 : Fin 3) * 256 + 1 * q.val = q.val; omega
  | ⟨2, _⟩ => show win0_3.index t (2 : Fin 3) * 256 + 1 * k.val = k.val; omega

/-! ## The attention weights: window 5 -/

/-- Element (0, q, k) of point t's block of window 5 is element (t, q, k) of the array. -/
theorem emb5 (t : Fin cfg0.N) (q k : Fin 256) :
    ((cfg0.win 5).blk t).view.emb (ix3 (0 : Fin 1) q k) = (ix3 (batch t) q k : S32x256x256.Idx) := by
  obtain ⟨-, -, -, -, -, ⟨e0, e1, e2⟩⟩ := idx_facts t
  refine funext fun a => Fin.ext ?_
  match a with
  | ⟨0, _⟩ => show win0_5.index t (0 : Fin 3) * 1 + 1 * 0 = t.val; omega
  | ⟨1, _⟩ => show win0_5.index t (1 : Fin 3) * 256 + 1 * q.val = q.val; omega
  | ⟨2, _⟩ => show win0_5.index t (2 : Fin 3) * 256 + 1 * k.val = k.val; omega

/-- What point t writes back through window 5 is block t of the attention weights of the argument arrays. -/
theorem flushed5_eq (hW : WeightsStored) (c : Dev nD) (t : Fin cfg0.N) :
    (dat0 (V0 m ρ) c).flushed 5 t
      = ((cfg0.win 5).blk t).view.read (Elt Ideal) (Cert.Attn.attnArr (argQ m c) (argK m c) (argM m c)) := by
  show (cfg0.win 5).cut (grid0.coords t) ((dat0 (V0 m ρ) c).after 5 t) = _
  rw [after0_5]
  unfold out0_5
  rw [View.canon_unit_zero hz3]
  simp only [View.ld_unit_zero (S := S1x256x64) hz3, View.ld_unit_zero (S := S1x256x256) hz3]
  funext j
  obtain ⟨u, q, k, rfl⟩ : ∃ (u : Fin 1) (q k : Fin 256), j = ix3 u q k := ⟨j 0, j 1, j 2, eq_ix3 j⟩
  obtain rfl : u = 0 := Subsingleton.elim _ _
  show k0_pay4 (F := Ideal) (iblk0 (V0 m ρ) c 0 t) (iblk0 (V0 m ρ) c 1 t) (iblk0 (V0 m ρ) c 3 t) (ix3 (0 : Fin 1) q k)
    = Cert.Attn.attnArr (argQ m c) (argK m c) (argM m c) (((cfg0.win 5).blk t).view.emb (ix3 (0 : Fin 1) q k))
  rw [emb5 t q k, Cert.Attn.attnArr_ix3]
  exact hW (iblk0 (V0 m ρ) c 0 t) (iblk0 (V0 m ρ) c 1 t) (iblk0 (V0 m ρ) c 3 t) (argQ m c) (argK m c) (argM m c) (batch t)
    (read0 m ρ c t) (read1 m ρ c t) (read3 m ρ c t) q k

/-- An index of the attention array is in point t's block iff each coordinate is in the block's range. -/
theorem mem_blk5 (t : Fin cfg0.N) (i : S32x256x256.Idx) :
    i ∈ ((cfg0.win 5).blk t).view.set ↔ ∀ a : Fin 3, win0_5.index t a * S1x256x256.size a ≤ (i a).val ∧ (i a).val < win0_5.index t a * S1x256x256.size a + S1x256x256.size a := by
  show i ∈ ((View.whole main_v0_1).slice (win0_5.rect t)).set ↔ _
  rw [View.set_slice_whole, Rect.mem_set_unit]
  exact Iff.rfl

/-- Every index of the attention array is in the block of the point numbered by its batch. -/
theorem cover5 (i : S32x256x256.Idx) :
    ∃ t : Fin cfg0.N, (cfg0.win 5).flush t = true ∧ i ∈ ((cfg0.win 5).blk t).view.set := by
  have hi0 : (i 0).val < 32 := (i 0).isLt
  have hi1 : (i 1).val < 256 := (i 1).isLt
  have hi2 : (i 2).val < 256 := (i 2).isLt
  obtain ⟨t, ht⟩ : ∃ t : Fin cfg0.N, t.val = (i 0).val := ⟨⟨(i 0).val, lt_of_lt_of_eq hi0 N_0.symm⟩, rfl⟩
  obtain ⟨-, -, -, -, -, ⟨e0, e1, e2⟩⟩ := idx_facts t
  refine ⟨t, flush0_5 t, ?_⟩
  rw [mem_blk5]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 256 ≤ (i 1).val ∧ (i 1).val < win0_5.index t (1 : Fin 3) * 256 + 256; omega
  | ⟨2, _⟩ => show win0_5.index t (2 : Fin 3) * 256 ≤ (i 2).val ∧ (i 2).val < win0_5.index t (2 : Fin 3) * 256 + 256; omega

/-- After the region the attention array is the specification's attention weights of the argument arrays. -/
theorem attn_array (hW : WeightsStored) (c : Dev nD) :
    (dat0 (V0 m ρ) c).arrAt 5 cfg0.N = Cert.Attn.attnArr (argQ m c) (argK m c) (argM m c) :=
  (dat0 (V0 m ρ) c).arrAt_eq_of_cover 5 _ (fun t _ => flushed5_eq m ρ hW c t) cover5

/-! ## The weighted sums: window 4 -/

/-- Element (0, q, d) of point t's block of window 4 is element (t, q, d) of the array. -/
theorem emb4 (t : Fin cfg0.N) (q : Fin 256) (d : Fin 64) :
    ((cfg0.win 4).blk t).view.emb (ix3 (0 : Fin 1) q d) = (ix3 (batch t) q d : S32x256x64.Idx) := by
  obtain ⟨-, -, -, -, ⟨e0, e1, e2⟩, -⟩ := idx_facts t
  refine funext fun a => Fin.ext ?_
  match a with
  | ⟨0, _⟩ => show win0_4.index t (0 : Fin 3) * 1 + 1 * 0 = t.val; omega
  | ⟨1, _⟩ => show win0_4.index t (1 : Fin 3) * 256 + 1 * q.val = q.val; omega
  | ⟨2, _⟩ => show win0_4.index t (2 : Fin 3) * 64 + 1 * d.val = d.val; omega

/-- What point t writes back through window 4 is block t of the weighted sums of the argument arrays. -/
theorem flushed4_eq (hX : MixedStored) (c : Dev nD) (t : Fin cfg0.N) :
    (dat0 (V0 m ρ) c).flushed 4 t
      = ((cfg0.win 4).blk t).view.read (Elt Ideal) (Cert.Attn.mixedArr (argQ m c) (argK m c) (argV m c) (argM m c)) := by
  show (cfg0.win 4).cut (grid0.coords t) ((dat0 (V0 m ρ) c).after 4 t) = _
  rw [after0_4]
  unfold out0_4
  rw [View.canon_unit_zero hz3]
  simp only [View.ld_unit_zero (S := S1x256x64) hz3, View.ld_unit_zero (S := S1x256x256) hz3]
  funext j
  obtain ⟨u, q, d, rfl⟩ : ∃ (u : Fin 1) (q : Fin 256) (d : Fin 64), j = ix3 u q d := ⟨j 0, j 1, j 2, eq_ix3 j⟩
  obtain rfl : u = 0 := Subsingleton.elim _ _
  show k0_pay1 (F := Ideal) (k0_pay3 (F := Ideal) (iblk0 (V0 m ρ) c 0 t) (iblk0 (V0 m ρ) c 1 t) (iblk0 (V0 m ρ) c 3 t) (iblk0 (V0 m ρ) c 2 t)) (ix3 (0 : Fin 1) q d)
    = Cert.Attn.mixedArr (argQ m c) (argK m c) (argV m c) (argM m c) (((cfg0.win 4).blk t).view.emb (ix3 (0 : Fin 1) q d))
  rw [emb4 t q d, Cert.Attn.mixedArr_ix3]
  exact hX (iblk0 (V0 m ρ) c 0 t) (iblk0 (V0 m ρ) c 1 t) (iblk0 (V0 m ρ) c 2 t) (iblk0 (V0 m ρ) c 3 t)
    (argQ m c) (argK m c) (argV m c) (argM m c) (batch t)
    (read0 m ρ c t) (read1 m ρ c t) (read2 m ρ c t) (read3 m ρ c t) q d

/-- An index of the weighted-sum array is in point t's block iff each coordinate is in the block's range. -/
theorem mem_blk4 (t : Fin cfg0.N) (i : S32x256x64.Idx) :
    i ∈ ((cfg0.win 4).blk t).view.set ↔ ∀ a : Fin 3, win0_4.index t a * S1x256x64.size a ≤ (i a).val ∧ (i a).val < win0_4.index t a * S1x256x64.size a + S1x256x64.size a := by
  show i ∈ ((View.whole main_v0_0).slice (win0_4.rect t)).set ↔ _
  rw [View.set_slice_whole, Rect.mem_set_unit]
  exact Iff.rfl

/-- Every index of the weighted-sum array is in the block of the point numbered by its batch. -/
theorem cover4 (i : S32x256x64.Idx) :
    ∃ t : Fin cfg0.N, (cfg0.win 4).flush t = true ∧ i ∈ ((cfg0.win 4).blk t).view.set := by
  have hi0 : (i 0).val < 32 := (i 0).isLt
  have hi1 : (i 1).val < 256 := (i 1).isLt
  have hi2 : (i 2).val < 64 := (i 2).isLt
  obtain ⟨t, ht⟩ : ∃ t : Fin cfg0.N, t.val = (i 0).val := ⟨⟨(i 0).val, lt_of_lt_of_eq hi0 N_0.symm⟩, rfl⟩
  obtain ⟨-, -, -, -, ⟨e0, e1, e2⟩, -⟩ := idx_facts t
  refine ⟨t, flush0_4 t, ?_⟩
  rw [mem_blk4]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 256 ≤ (i 1).val ∧ (i 1).val < win0_4.index t (1 : Fin 3) * 256 + 256; omega
  | ⟨2, _⟩ => show win0_4.index t (2 : Fin 3) * 64 ≤ (i 2).val ∧ (i 2).val < win0_4.index t (2 : Fin 3) * 64 + 64; omega

/-- After the region the weighted-sum array is the specification's weighted sums of the argument arrays. -/
theorem mixed_array (hX : MixedStored) (c : Dev nD) :
    (dat0 (V0 m ρ) c).arrAt 4 cfg0.N = Cert.Attn.mixedArr (argQ m c) (argK m c) (argV m c) (argM m c) :=
  (dat0 (V0 m ρ) c).arrAt_eq_of_cover 4 _ (fun t _ => flushed4_eq m ρ hX c t) cover4

end Cert.KernelIdeal.AttnArray

end
-- ==== Proof.KernelValue.lean ====
/-
  The idealized kernel's two results as functions of its arguments.

  The fold through @main's segments ends, at the first result's buffer, with the host line's value: the weighted-sum
  array region 0 leaves and the pair-mean array region 1 leaves, side by side along the last axis; and at the second
  result's buffer, which the host line and region 1 do not write, with the attention array region 0 leaves. With each
  region's array equal to the specification's array of the argument arrays, the run ends with both results at the
  specification's terms and the arguments unchanged.
-/
import proofs.«108301_j15788299780171_1_alg».proof.Proof.KernelRun
import proofs.«108301_j15788299780171_1_alg».proof.Proof.AttnArray

set_option maxRecDepth 16384

noncomputable section

namespace Cert.KernelIdeal.Whole

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.AttnArray

variable (m : (ℓ : Loc nD τ sig) → Buf (Elt Ideal) ℓ) (ρ : Dev nD → PrngReg)

/-- The two pairwise operands of core c, as the specification's functions. -/
abbrev argA (c : Dev nD) : Cert.Attn.SS.Idx → EReal := m ((c : Thread nD τ).loc main_arg3)
abbrev argB (c : Dev nD) : Cert.Attn.SS.Idx → EReal := m ((c : Thread nD τ).loc main_arg4)

/-- The two halves side by side along the last axis: the host line's one operation, as both programs spell it. -/
def sideBySide (x y : Cert.Attn.SQ.Idx → EReal) : S32x256x128.Idx → EReal :=
  concatenate S32x256x128 2 [⟨S32x256x64, x⟩, ⟨S32x256x64, y⟩] concatenates_S32x256x64_S32x256x64_S32x256x128_d2

/-- The host line does not write the attention array, nor does region 1: it ends as region 0 leaves it. -/
theorem end_attn (c : Dev nD) : W3 m ρ c (Proc.devRef .tc main_v0_1) = (dat0 (V0 m ρ) c).arrAt 5 cfg0.N :=
  calc W3 m ρ c (Proc.devRef .tc main_v0_1)
    _ = W2 m ρ c (Proc.devRef .tc main_v0_1) := StableHlo.after_of_forall_not_mem (b := Proc.devRef .tc main_v0_1) _ _ (List.forall_iff_forall_mem.mp (by
          simp only [hostOps2, List.Forall, StableHlo.binary_writes, Finset.mem_singleton]
          exact StableHlo.devRef_ne_of_ne (by decide)))
    _ = W1 m ρ c (Proc.devRef .tc main_v0_1) := W2_of_ne m ρ c main_v0_1 (by decide)
    _ = (dat0 (V0 m ρ) c).arrAt 5 cfg0.N := W1_arr m ρ c 5

/-- Region 1 does not write the weighted-sum array: it enters the host line as region 0 leaves it. -/
theorem mid_mixed (c : Dev nD) : W2 m ρ c (Proc.devRef .tc main_v0_0) = (dat0 (V0 m ρ) c).arrAt 4 cfg0.N :=
  (W2_of_ne m ρ c main_v0_0 (by decide)).trans (W1_arr m ρ c 4)

/-- The pair-mean array enters the host line as region 1 leaves it. -/
theorem mid_pairs (c : Dev nD) : W2 m ρ c (Proc.devRef .tc main_v1) = (dat1 (V1 m ρ) c).arrAt 2 cfg1.N :=
  W2_arr m ρ c 2

/-- The host line's result: the two arrays side by side. -/
theorem end_out (c : Dev nD) :
    W3 m ρ c (Proc.devRef .tc main_v2)
      = sideBySide (W2 m ρ c (Proc.devRef .tc main_v0_0)) (W2 m ρ c (Proc.devRef .tc main_v1)) := by
  show StableHlo.after hostOps2 (W2 m ρ c) (Proc.devRef .tc main_v2) = _
  simp only [hostOps2, StableHlo.after_cons, StableHlo.after_nil]
  rw [StableHlo.binary_result]
  rfl

/-- Every weakly fair execution of the idealized kernel terminates without a fault; its first result is the weighted
    sums and the pair means of the arguments side by side, its second the attention weights; the arguments end unchanged. -/
theorem run_values (hW : WeightsStored) (hX : MixedStored)
    (hP : ∀ c : Dev nD, (dat1 (V1 m ρ) c).arrAt 2 cfg1.N = Cert.Attn.pairMeanArr (argA m c) (argB m c)) :
    θ_run defs (onTc (τ := τ) (main (F := Ideal))) ⟨m, fun _ => 0, ρ⟩ (fun r => ∀ c : Dev nD,
      r.2.mem ((c.tc : Thread nD τ).loc main_v2)
          = sideBySide (Cert.Attn.mixedArr (argQ m c) (argK m c) (argV m c) (argM m c)) (Cert.Attn.pairMeanArr (argA m c) (argB m c))
      ∧ r.2.mem ((c.tc : Thread nD τ).loc main_v0_1) = Cert.Attn.attnArr (argQ m c) (argK m c) (argM m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
      ⟨(h c _ (mem_uc main_v2 (by decide))).trans ((end_out m ρ c).trans (by
          rw [mid_mixed, mid_pairs, mixed_array m ρ hX c, hP c])),
       (h c _ (mem_uc main_v0_1 (by decide))).trans ((end_attn m ρ c).trans (attn_array m ρ hW c)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c)⟩)
    (run_contents m ρ)

end Cert.KernelIdeal.Whole

end
-- ==== Proof.LibPlainDot.lean ====
/-
  A plain matrix product read at an index, at the ideal instance.

  For a rank-2 contraction [a, K] · [K, b] → [a, b] (the left operand's axis 1 against the right operand's axis 0, no batch
  axis), the accumulate-into-zero matrix product and the host's dot_general are both, at the result index (p, q), the sum
  over k < K of lhs (p, k) · rhs (k, q): the contracted shape has one axis of extent K, so the sum over its indices is a
  sum over Fin K, and the operand indices the contraction names at (p, q) and k are (p, k) and (k, q). The four coordinate
  facts about a given dimension record (hl0, hl1, hr0, hr1) are taken as hypotheses: for a literal record each is a
  computation.
-/
import Idealize.ShloMosaic.PureOps.Ideal.Laws
import Idealize.ShloMosaic.Lib.ValueIdx

noncomputable section

namespace Cert.Lib.PlainDot

open Idealize.ShloMosaic Idealize.ShloMosaic.ValueIdx

variable {a K b : Nat} (D : DotDims (⟨2, ![a, K]⟩ : Shape) (⟨2, ![K, b]⟩ : Shape) (⟨2, ![a, b]⟩ : Shape))
  (hr : D.contr.rank = 1) (hs : D.contr.size ⟨0, by omega⟩ = K)
  (hl0 : ∀ (i : (⟨2, ![a, b]⟩ : Shape).Idx) (q : D.contr.Idx), (D.lhsIdx i q 0).val = (i 0).val)
  (hl1 : ∀ (i : (⟨2, ![a, b]⟩ : Shape).Idx) (q : D.contr.Idx), (D.lhsIdx i q 1).val = (q ⟨0, by omega⟩).val)
  (hr0 : ∀ (i : (⟨2, ![a, b]⟩ : Shape).Idx) (q : D.contr.Idx), (D.rhsIdx i q 0).val = (q ⟨0, by omega⟩).val)
  (hr1 : ∀ (i : (⟨2, ![a, b]⟩ : Shape).Idx) (q : D.contr.Idx), (D.rhsIdx i q 1).val = (i 1).val)

include hr hs hl0 hl1 hr0 hr1

/-- The sum over the contracted shape's indices of the products of the operands at the contraction's indices is the
    sum over k < K of lhs (p, k) · rhs (k, q). -/
theorem sum_contr (lhs : (⟨2, ![a, K]⟩ : Shape).Idx → EReal) (rhs : (⟨2, ![K, b]⟩ : Shape).Idx → EReal) (p : Fin a) (q : Fin b) :
    ∑ k : D.contr.Idx, lhs (D.lhsIdx (ix2 p q) k) * rhs (D.rhsIdx (ix2 p q) k) = ∑ k : Fin K, lhs (ix2 p k) * rhs (ix2 k q) := by
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun ax => Fin.ext (by
    match ax with
    | ⟨0, _⟩ => exact hl0 _ _
    | ⟨1, _⟩ => exact (hl1 _ _).trans hk)
  have er : D.rhsIdx (ix2 p q) ((contrEquiv1 D K hr hs).symm k) = ix2 k q := funext fun ax => Fin.ext (by
    match ax with
    | ⟨0, _⟩ => exact (hr0 _ _).trans hk
    | ⟨1, _⟩ => exact hr1 _ _)
  rw [el, er]

/-- The matrix product accumulated into the zero splat, at (p, q). -/
theorem matmul_zero_apply (prec : Option ContractPrecision) (lhs : FVec Ideal (⟨2, ![a, K]⟩ : Shape) .f32) (rhs : FVec Ideal (⟨2, ![K, b]⟩ : Shape) .f32)
    (p : Fin a) (q : Fin b) :
    matmul D prec lhs rhs (constant (⟨2, ![a, b]⟩ : Shape) .f32 0x00000000#32) (ix2 p q) = ∑ k : Fin K, lhs (ix2 p k) * rhs (ix2 k q) :=
  (Ideal.matmul_constant_zero_apply D prec lhs rhs (ix2 p q)).trans (sum_contr D hr hs hl0 hl1 hr0 hr1 lhs rhs p q)

/-- The host's dot_general, at (p, q). -/
theorem dotGeneral_apply (prec : Option ContractPrecision) (lhs : FVec Ideal (⟨2, ![a, K]⟩ : Shape) .f32) (rhs : FVec Ideal (⟨2, ![K, b]⟩ : Shape) .f32)
    (p : Fin a) (q : Fin b) :
    Host.dotGeneral D prec lhs rhs (ix2 p q) = ∑ k : Fin K, lhs (ix2 p k) * rhs (ix2 k q) :=
  (Ideal.dotGeneral_apply D prec .single lhs rhs (ix2 p q)).trans (sum_contr D hr hs hl0 hl1 hr0 hr1 lhs rhs p q)

end Cert.Lib.PlainDot

end
-- ==== Proof.LibRowRead.lean ====
/-
  Vector operations read at an index, at the ideal instance, for the shapes of a row-blocked kernel: a column
  [a, 1] broadcast along the lanes, a vector [a] cast to a column [a, 1], the sum of a row of an [a, b] block,
  four [a, 32] pieces joined along the lanes into [a, 128], and the matrix product into the zero splat for
  operands of any float format (a change of format is the identity on extended reals).
-/
import Idealize.ShloMosaic.PureOps.Ideal.Laws
import Idealize.ShloMosaic.Lib.ValueIdx
import Idealize.ShloMosaic.Lib.ValueLayout
import Idealize.ShloMosaic.Lib.Pipeline.Value
import proofs.«108301_j15788299780171_1_alg».proof.Proof.LibPlainDot

noncomputable section

namespace Cert.Lib.RowRead

open Idealize.ShloMosaic Idealize.ShloMosaic.ValueIdx

variable {α : Type}

/-- A column [a, 1] broadcast to [a, b] reads, at (p, c), the column's entry of row p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector [a] cast to a column [a, 1] reads, at (i, u), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The reduced index p with lane k put back is (p, k). -/
theorem lift_row {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- The lane sum of an [a, b] block, at row p, is the sum over the b lanes of the block's row p. -/
theorem rowSum_apply {a b : ℕ} {φ : FTy} (src : FVec Ideal (⟨2, ![a, b]⟩ : Shape) φ) (acc : BitVec φ.bits)
    (h : (⟨2, ![a, b]⟩ : Shape).Reduces [1] (⟨1, ![a]⟩ : Shape)) (hφ : FKind.Formats φ) (hacc : acc = FKind.add.neutral φ hφ) (p : Fin a) :
    multiReduction .add [1] (⟨1, ![a]⟩ : Shape) src acc h hφ hacc (ix1 p) = ∑ k : Fin b, src (ix2 p k) := by
  rw [Ideal.multiReduction_add_single]
  exact Finset.sum_congr rfl fun k _ => by rw [lift_row]; rfl

/-- Four [a, 32] pieces joined along the lanes: lane 32 k + c of the result is lane c of piece k. -/
theorem concat4_apply {a : ℕ} (x0 x1 x2 x3 : (⟨2, ![a, 32]⟩ : Shape).Idx → α)
    (h : Shape.Concatenates (([⟨(⟨2, ![a, 32]⟩ : Shape), x0⟩, ⟨(⟨2, ![a, 32]⟩ : Shape), x1⟩, ⟨(⟨2, ![a, 32]⟩ : Shape), x2⟩, ⟨(⟨2, ![a, 32]⟩ : Shape), x3⟩] :
      List ((s : Shape) × (s.Idx → α))).map (·.1)) (⟨2, ![a, 128]⟩ : Shape) 1)
    (p : Fin a) (c : Fin 32) (k : Fin 4) (q : Fin 128) (hq : q.val = 32 * k.val + c.val) :
    concatenate (⟨2, ![a, 128]⟩ : Shape) 1 [⟨(⟨2, ![a, 32]⟩ : Shape), x0⟩, ⟨(⟨2, ![a, 32]⟩ : Shape), x1⟩, ⟨(⟨2, ![a, 32]⟩ : Shape), x2⟩, ⟨(⟨2, ![a, 32]⟩ : Shape), x3⟩] h (ix2 p q)
      = (![x0, x1, x2, x3] k) (ix2 p c) := by
  have hi : ∀ b : Fin (⟨2, ![a, 32]⟩ : Shape).rank, b.cast (rfl : (⟨2, ![a, 32]⟩ : Shape).rank = (⟨2, ![a, 128]⟩ : Shape).rank) ≠ (1 : Fin 2) →
      ((ix2 p c : (⟨2, ![a, 32]⟩ : Shape).Idx) b).val = ((ix2 p q : (⟨2, ![a, 128]⟩ : Shape).Idx) (b.cast rfl)).val := by
    intro b hb
    match b with
    | ⟨0, _⟩ => rfl
    | ⟨1, _⟩ => exact absurd rfl hb
  fin_cases k
  · exact concatenate_apply_piece 1 _ h _ 0 (by simp) _ x0 rfl rfl 0 rfl (ix2 p c) hi (by show 0 + c.val = q.val; simp at hq; omega)
  · exact concatenate_apply_piece 1 _ h _ 1 (by simp) _ x1 rfl rfl 32 rfl (ix2 p c) hi (by show 32 + c.val = q.val; simp at hq; omega)
  · exact concatenate_apply_piece 1 _ h _ 2 (by simp) _ x2 rfl rfl 64 rfl (ix2 p c) hi (by show 64 + c.val = q.val; simp at hq; omega)
  · exact concatenate_apply_piece 1 _ h _ 3 (by simp) _ x3 rfl rfl 96 rfl (ix2 p c) hi (by show 96 + c.val = q.val; simp at hq; omega)

section Dot

variable {a K b : Nat} (D : DotDims (⟨2, ![a, K]⟩ : Shape) (⟨2, ![K, b]⟩ : Shape) (⟨2, ![a, b]⟩ : Shape))
  (hr : D.contr.rank = 1) (hs : D.contr.size ⟨0, by omega⟩ = K)
  (hl0 : ∀ (i : (⟨2, ![a, b]⟩ : Shape).Idx) (q : D.contr.Idx), (D.lhsIdx i q 0).val = (i 0).val)
  (hl1 : ∀ (i : (⟨2, ![a, b]⟩ : Shape).Idx) (q : D.contr.Idx), (D.lhsIdx i q 1).val = (q ⟨0, by omega⟩).val)
  (hr0 : ∀ (i : (⟨2, ![a, b]⟩ : Shape).Idx) (q : D.contr.Idx), (D.rhsIdx i q 0).val = (q ⟨0, by omega⟩).val)
  (hr1 : ∀ (i : (⟨2, ![a, b]⟩ : Shape).Idx) (q : D.contr.Idx), (D.rhsIdx i q 1).val = (i 1).val)

include hr hs hl0 hl1 hr0 hr1

/-- The matrix product into the zero splat, at (p, q), for operands of any float formats: the sum over k < K of
    lhs (p, k) · rhs (k, q). -/
theorem matmul_zero_apply {φ₁ φ₂ : FTy} (prec : Option ContractPrecision) (lhs : FVec Ideal (⟨2, ![a, K]⟩ : Shape) φ₁)
    (rhs : FVec Ideal (⟨2, ![K, b]⟩ : Shape) φ₂) (p : Fin a) (q : Fin b) :
    matmul D prec lhs rhs (constant (⟨2, ![a, b]⟩ : Shape) .f32 0x00000000#32) (ix2 p q) = ∑ k : Fin K, lhs (ix2 p k) * rhs (ix2 k q) :=
  (Ideal.matmul_constant_zero_apply D prec lhs rhs (ix2 p q)).trans
    (Cert.Lib.PlainDot.sum_contr D hr hs hl0 hl1 hr0 hr1 (fun i => lhs i) (fun i => rhs i) p q)

end Dot

end Cert.Lib.RowRead

end
-- ==== Proof.AttnBlockScores.lean ====
/-
  The scaled and masked scores of one batch's attention block, read at an index.

  The block's body loads a query block, a key block and a mask block, each with a leading unit axis. The score matrix
  is the product of the query block with the transposed key block, accumulated into zero, times the word of 1/8; a
  change of float format is the identity on the extended reals, so the narrowed operands are the loaded ones. Where the
  mask word is zero the score is replaced by the fill. Each stage below is the body's own term, named, and is read at
  (q, k) as the specification's score and masked score of the batch the blocks were cut from.
-/
import proofs.«108301_j15788299780171_1_alg».proof.Proof.Gen.KernelIdeal.Skeleton
import proofs.«108301_j15788299780171_1_alg».proof.Proof.AttnSpec
import proofs.«108301_j15788299780171_1_alg».proof.Proof.LibRowRead
import Idealize.ShloMosaic.Lib.ValueLayout

noncomputable section

namespace Cert.KernelIdeal.AttnBlock

open Idealize.ShloMosaic Idealize.ShloMosaic.ValueIdx
open Cert.KernelIdeal Cert.KernelIdeal.Gen

/-! ## The two contractions' operand indices -/

local notation "DQK" => dot_S256x64_S64x256_S256x256_1_0_0_1_n_n
local notation "DPV" => dot_S256x256_S256x64_S256x64_1_0_0_1_n_n

theorem qk_l0 (i : S256x256.Idx) (c : (DQK).contr.Idx) : ((DQK).lhsIdx i c 0).val = (i 0).val := by
  unfold DotDims.lhsIdx
  rw [dif_neg (show ¬(0 : Fin S256x64.rank) ∈ (DQK).lhsBatch by decide),
    dif_pos (show (0 : Fin S256x64.rank) ∈ (DQK).lhsNonContracting by decide)]
  rfl
theorem qk_l1 (i : S256x256.Idx) (c : (DQK).contr.Idx) : ((DQK).lhsIdx i c 1).val = (c ⟨0, by decide⟩).val :=
  (DQK).lhsIdx_val_of_single rfl i c
theorem qk_r0 (i : S256x256.Idx) (c : (DQK).contr.Idx) : ((DQK).rhsIdx i c 0).val = (c ⟨0, by decide⟩).val :=
  (DQK).rhsIdx_val_of_single rfl i c
theorem qk_r1 (i : S256x256.Idx) (c : (DQK).contr.Idx) : ((DQK).rhsIdx i c 1).val = (i 1).val := by
  unfold DotDims.rhsIdx
  rw [dif_neg (show ¬(1 : Fin S64x256.rank) ∈ (DQK).rhsBatch by decide),
    dif_pos (show (1 : Fin S64x256.rank) ∈ (DQK).rhsNonContracting by decide)]
  rfl

theorem pv_l0 (i : S256x64.Idx) (c : (DPV).contr.Idx) : ((DPV).lhsIdx i c 0).val = (i 0).val := by
  unfold DotDims.lhsIdx
  rw [dif_neg (show ¬(0 : Fin S256x256.rank) ∈ (DPV).lhsBatch by decide),
    dif_pos (show (0 : Fin S256x256.rank) ∈ (DPV).lhsNonContracting by decide)]
  rfl
theorem pv_l1 (i : S256x64.Idx) (c : (DPV).contr.Idx) : ((DPV).lhsIdx i c 1).val = (c ⟨0, by decide⟩).val :=
  (DPV).lhsIdx_val_of_single rfl i c
theorem pv_r0 (i : S256x64.Idx) (c : (DPV).contr.Idx) : ((DPV).rhsIdx i c 0).val = (c ⟨0, by decide⟩).val :=
  (DPV).rhsIdx_val_of_single rfl i c
theorem pv_r1 (i : S256x64.Idx) (c : (DPV).contr.Idx) : ((DPV).rhsIdx i c 1).val = (i 1).val := by
  unfold DotDims.rhsIdx
  rw [dif_neg (show ¬(1 : Fin S256x64.rank) ∈ (DPV).rhsBatch by decide),
    dif_pos (show (1 : Fin S256x64.rank) ∈ (DPV).rhsNonContracting by decide)]
  rfl

/-! ## The stages, named -/

/-- The query block times the transposed key block, into zero, times the word of 1/8. -/
def scoreVec (x0 x1 : Vec Ideal S1x256x64 .f32) : FVec Ideal S256x256 .f32 :=
  mulf
    (matmul DQK none
      (truncf .bf16 (shapeCast S256x64 x0 shapeCasts_S1x256x64_S256x64) bitsLt_bf16_f32)
      (transpose S64x256 [1, 0] (truncf .bf16 (shapeCast S256x64 x1 shapeCasts_S1x256x64_S256x64) bitsLt_bf16_f32)
        transposes_S256x64_p1_0_S64x256)
      (constant S256x256 .f32 0x00000000#32))
    (broadcast S256x256 (Scalar.ofBits (F := Ideal) .f32 0x3E000000#32))

/-- The score, replaced by the fill where the mask word is zero. -/
def maskedVec (x0 x1 : Vec Ideal S1x256x64 .f32) (x3 : Vec Ideal S1x256x256 .i32) : FVec Ideal S256x256 .f32 :=
  select (cmpi .eq (shapeCast S256x256 x3 shapeCasts_S1x256x256_S256x256) (broadcast S256x256 0#32))
    (broadcast S256x256 (Scalar.ofBits (F := Ideal) .f32 0xCE6E6B28#32)) (scoreVec x0 x1)

variable (x0 x1 : Vec Ideal S1x256x64 .f32) (x3 : Vec Ideal S1x256x256 .i32)
  (Q K : Cert.Attn.SQ.Idx → EReal) (M : Cert.Attn.SA.Idx → BitVec 32) (b : Fin 32)
  (h0 : ∀ (q : Fin 256) (d : Fin 64), x0 (ix3 (0 : Fin 1) q d) = Q (ix3 b q d))
  (h1 : ∀ (k : Fin 256) (d : Fin 64), x1 (ix3 (0 : Fin 1) k d) = K (ix3 b k d))
  (h3 : ∀ (q k : Fin 256), x3 (ix3 (0 : Fin 1) q k) = M (ix3 b q k))

include h0 h1 in
/-- The scaled score at (q, k). -/
theorem scoreVec_at (q k : Fin 256) : scoreVec x0 x1 (ix2 q k) = Cert.Attn.score Q K b q k := by
  unfold scoreVec Cert.Attn.score
  rw [mulf_apply, broadcast_apply]
  refine congrArg (· * _) ?_
  refine (Cert.Lib.RowRead.matmul_zero_apply DQK rfl rfl qk_l0 qk_l1 qk_r0 qk_r1 none _ _ q k).trans ?_
  refine Finset.sum_congr rfl fun d _ => ?_
  rw [truncf_apply, shapeCast_1ab_ab_apply, transpose_ix2_apply, truncf_apply, shapeCast_1ab_ab_apply, h0, h1]

include h0 h1 h3 in
/-- The masked score at (q, k). -/
theorem maskedVec_at (q k : Fin 256) : maskedVec x0 x1 x3 (ix2 q k) = Cert.Attn.masked Q K M b q k := by
  unfold maskedVec Cert.Attn.masked
  rw [select_apply, broadcast_apply, scoreVec_at x0 x1 Q K b h0 h1 q k]
  show Scalar.select (IntOp.cmpi .eq (shapeCast S256x256 x3 shapeCasts_S1x256x256_S256x256 (ix2 q k)) 0#32) _ _ = _
  rw [shapeCast_1ab_ab_apply, h3]
  rfl

end Cert.KernelIdeal.AttnBlock

end
-- ==== Proof.LibRowMax.lean ====
/-
  The maximum of a row of a matrix, at the ideal instance.

  A float reduction with a maximum body over the lanes of an [a, b] matrix, read at row p, is the fold of max, from
  the value the accumulator's word denotes, over the b entries of row p: the reduced index p with lane k put back is
  (p, k), and max on the extended reals commutes and associates, so the fold does not depend on the order of the lanes.
-/
import Idealize.ShloMosaic.PureOps.Ideal.Laws
import Idealize.ShloMosaic.Lib.ValueIdx

noncomputable section

namespace Cert.Lib.RowMax

open Idealize.ShloMosaic Idealize.ShloMosaic.ValueIdx

/-- The reduced index p with lane k put back is (p, k). -/
theorem lift_lane {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- The lane maximum of an [a, b] matrix, at row p, is the fold of max over the b entries of row p. -/
theorem rowMax_apply {a b : ℕ} {φ : FTy} (src : FVec Ideal (⟨2, ![a, b]⟩ : Shape) φ) (acc : BitVec φ.bits)
    (h : (⟨2, ![a, b]⟩ : Shape).Reduces [1] (⟨1, ![a]⟩ : Shape)) (hφ : FKind.Formats φ)
    (hacc : acc = FKind.maximumf.neutral φ hφ) (p : Fin a) :
    multiReduction .maximumf [1] (⟨1, ![a]⟩ : Shape) src acc h hφ hacc (ix1 p)
      = (Finset.univ : Finset (Fin b)).fold max (Ideal.ofBits φ acc) (fun k => src (ix2 p k)) := by
  rw [Ideal.multiReduction_maximumf_single]
  exact congrArg (fun f => Finset.fold max (Ideal.ofBits φ acc) f (Finset.univ : Finset (Fin b)))
    (funext fun k => by show src (h.lift (ix1 p) k) = src (ix2 p k); rw [lift_lane]; rfl)

end Cert.Lib.RowMax

end
-- ==== Proof.AttnBlockSoftmax.lean ====
/-
  The row maximum, the exponentials, the row totals and the quotients of one batch's attention block, read at an index.

  From the masked scores the body takes each row's maximum over the lanes (a fold of max from the word of -∞, then
  once more against -∞), turns it into a column and spreads it along the lanes, subtracts it, exponentiates, sums each
  row over the lanes, spreads the sums likewise, and divides. Each stage is the body's own term, named, and is read at
  its index as the specification's rowMax, weight, total and attn.
-/
import proofs.«108301_j15788299780171_1_alg».proof.Proof.AttnBlockScores
import proofs.«108301_j15788299780171_1_alg».proof.Proof.LibRowMax

noncomputable section

namespace Cert.KernelIdeal.AttnBlock

open Idealize.ShloMosaic Idealize.ShloMosaic.ValueIdx
open Cert.KernelIdeal Cert.KernelIdeal.Gen

/-! ## The stages, named -/

/-- Each row's maximum of the masked scores, taken from -∞ and once more against -∞. -/
def rowMaxVec (x0 x1 : Vec Ideal S1x256x64 .f32) (x3 : Vec Ideal S1x256x256 .i32) : FVec Ideal S256 .f32 :=
  maximumf (broadcast S256 (Scalar.ofBits (F := Ideal) .f32 0xFF800000#32))
    (multiReduction (F := Ideal) .maximumf [1] S256 (maskedVec x0 x1 x3) 0xFF800000#32 reduces_S256x256_S256 (.inl rfl) rfl)

/-- The exponential of each masked score less its row's maximum. -/
def weightVec (x0 x1 : Vec Ideal S1x256x64 .f32) (x3 : Vec Ideal S1x256x256 .i32) : FVec Ideal S256x256 .f32 :=
  exp (subf (maskedVec x0 x1 x3)
    (broadcastTo S256x256 (shapeCast S256x1 (rowMaxVec x0 x1 x3) shapeCasts_S256_S256x1) broadcasts_S256x1_S256x256))

/-- Each row's sum of the exponentials. -/
def totalVec (x0 x1 : Vec Ideal S1x256x64 .f32) (x3 : Vec Ideal S1x256x256 .i32) : FVec Ideal S256 .f32 :=
  multiReduction (F := Ideal) .add [1] S256 (weightVec x0 x1 x3) 0x00000000#32 reduces_S256x256_S256 (.inl rfl) rfl

/-- Each exponential over its row's sum. -/
def attnVec (x0 x1 : Vec Ideal S1x256x64 .f32) (x3 : Vec Ideal S1x256x256 .i32) : FVec Ideal S256x256 .f32 :=
  divf (weightVec x0 x1 x3)
    (broadcastTo S256x256 (shapeCast S256x1 (totalVec x0 x1 x3) shapeCasts_S256_S256x1) broadcasts_S256x1_S256x256)

variable (x0 x1 : Vec Ideal S1x256x64 .f32) (x3 : Vec Ideal S1x256x256 .i32)
  (Q K : Cert.Attn.SQ.Idx → EReal) (M : Cert.Attn.SA.Idx → BitVec 32) (b : Fin 32)
  (h0 : ∀ (q : Fin 256) (d : Fin 64), x0 (ix3 (0 : Fin 1) q d) = Q (ix3 b q d))
  (h1 : ∀ (k : Fin 256) (d : Fin 64), x1 (ix3 (0 : Fin 1) k d) = K (ix3 b k d))
  (h3 : ∀ (q k : Fin 256), x3 (ix3 (0 : Fin 1) q k) = M (ix3 b q k))

include h0 h1 h3

/-- The row maximum at q. -/
theorem rowMaxVec_at (q : Fin 256) : rowMaxVec x0 x1 x3 (ix1 q) = Cert.Attn.rowMax Q K M b q := by
  unfold rowMaxVec Cert.Attn.rowMax
  rw [maximumf_apply, broadcast_apply]
  refine congrArg (max _) ?_
  refine (Cert.Lib.RowMax.rowMax_apply (maskedVec x0 x1 x3) 0xFF800000#32 reduces_S256x256_S256 (.inl rfl) rfl q).trans ?_
  exact congrArg (fun f => Finset.fold max (Ideal.ofBits .f32 0xFF800000#32) f (Finset.univ : Finset (Fin 256)))
    (funext fun k => maskedVec_at x0 x1 x3 Q K M b h0 h1 h3 q k)

/-- The exponential at (q, k). -/
theorem weightVec_at (q k : Fin 256) : weightVec x0 x1 x3 (ix2 q k) = Cert.Attn.weight Q K M b q k := by
  unfold weightVec Cert.Attn.weight
  show Ideal.exp (maskedVec x0 x1 x3 (ix2 q k) - broadcastTo S256x256 _ broadcasts_S256x1_S256x256 (ix2 q k)) = _
  rw [Cert.Lib.RowRead.broadcastTo_a1_ab_apply, Cert.Lib.RowRead.shapeCast_a_a1_apply,
    maskedVec_at x0 x1 x3 Q K M b h0 h1 h3 q k, rowMaxVec_at x0 x1 x3 Q K M b h0 h1 h3 q]

/-- The row total at q. -/
theorem totalVec_at (q : Fin 256) : totalVec x0 x1 x3 (ix1 q) = Cert.Attn.total Q K M b q := by
  unfold totalVec Cert.Attn.total
  refine (Cert.Lib.RowRead.rowSum_apply (weightVec x0 x1 x3) 0x00000000#32 reduces_S256x256_S256 (.inl rfl) rfl q).trans ?_
  exact Finset.sum_congr rfl fun k _ => weightVec_at x0 x1 x3 Q K M b h0 h1 h3 q k

/-- The attention weight at (q, k). -/
theorem attnVec_at (q k : Fin 256) : attnVec x0 x1 x3 (ix2 q k) = Cert.Attn.attn Q K M b q k := by
  unfold attnVec Cert.Attn.attn
  rw [divf_apply, Cert.Lib.RowRead.broadcastTo_a1_ab_apply, Cert.Lib.RowRead.shapeCast_a_a1_apply,
    weightVec_at x0 x1 x3 Q K M b h0 h1 h3 q k, totalVec_at x0 x1 x3 Q K M b h0 h1 h3 q]

end Cert.KernelIdeal.AttnBlock

end
-- ==== Proof.AttnBlock.lean ====
/-
  The attention block's two stored values, read at an index, are the specification's.

  The weights the body stores are its quotient stage under a leading unit axis; the other stored value is the product
  of the weights with the value block, accumulated into zero, under a leading unit axis. A change of float format is
  the identity on the extended reals, so the narrowed weights and values are the weights and the loaded values.
-/
import proofs.«108301_j15788299780171_1_alg».proof.Proof.AttnBlockSoftmax

noncomputable section

namespace Cert.KernelIdeal.AttnBlock

open Idealize.ShloMosaic Idealize.ShloMosaic.ValueIdx
open Cert.KernelIdeal Cert.KernelIdeal.Gen

local notation "DPV" => dot_S256x256_S256x64_S256x64_1_0_0_1_n_n

/-- The body's weights are the quotient stage: the same term, its intermediate values named. -/
theorem k0_pay2_eq (x0 x1 : Vec Ideal S1x256x64 .f32) (x3 : Vec Ideal S1x256x256 .i32) :
    Gen.k0_pay2 (F := Ideal) x0 x1 x3 = attnVec x0 x1 x3 := rfl

variable (x0 x1 x2 : Vec Ideal S1x256x64 .f32) (x3 : Vec Ideal S1x256x256 .i32)
  (Q K V : Cert.Attn.SQ.Idx → EReal) (M : Cert.Attn.SA.Idx → BitVec 32) (b : Fin 32)
  (h0 : ∀ (q : Fin 256) (d : Fin 64), x0 (ix3 (0 : Fin 1) q d) = Q (ix3 b q d))
  (h1 : ∀ (k : Fin 256) (d : Fin 64), x1 (ix3 (0 : Fin 1) k d) = K (ix3 b k d))
  (h2 : ∀ (k : Fin 256) (d : Fin 64), x2 (ix3 (0 : Fin 1) k d) = V (ix3 b k d))
  (h3 : ∀ (q k : Fin 256), x3 (ix3 (0 : Fin 1) q k) = M (ix3 b q k))

include h0 h1 h3 in
/-- The body's weights at (q, k). -/
theorem weights_at (q k : Fin 256) :
    Gen.k0_pay2 (F := Ideal) x0 x1 x3 (ix2 q k) = Cert.Attn.attn Q K M b q k :=
  (congrFun (k0_pay2_eq x0 x1 x3) (ix2 q k)).trans (attnVec_at x0 x1 x3 Q K M b h0 h1 h3 q k)

include h0 h1 h3 in
/-- The stored weights at (0, q, k). -/
theorem weights_store_at (q k : Fin 256) :
    Gen.k0_pay4 (F := Ideal) x0 x1 x3 (ix3 (0 : Fin 1) q k) = Cert.Attn.attn Q K M b q k := by
  unfold Gen.k0_pay4
  exact (shapeCast_ab_1ab_apply _ shapeCasts_S256x256_S1x256x256 (0 : Fin 1) q k).trans
    (weights_at x0 x1 x3 Q K M b h0 h1 h3 q k)

include h0 h1 h2 h3 in
/-- The product of the weights with the value block at (q, d). -/
theorem mixed_at (q : Fin 256) (d : Fin 64) :
    Gen.k0_pay3 (F := Ideal) x0 x1 x3 x2 (ix2 q d) = Cert.Attn.mixed Q K V M b q d := by
  unfold Gen.k0_pay3 Cert.Attn.mixed
  refine (Cert.Lib.RowRead.matmul_zero_apply DPV rfl rfl pv_l0 pv_l1 pv_r0 pv_r1 none _ _ q d).trans ?_
  refine Finset.sum_congr rfl fun k _ => ?_
  rw [truncf_apply, truncf_apply, shapeCast_1ab_ab_apply, h2, weights_at x0 x1 x3 Q K M b h0 h1 h3 q k]

include h0 h1 h2 h3 in
/-- The other stored value at (0, q, d). -/
theorem mixed_store_at (q : Fin 256) (d : Fin 64) :
    Gen.k0_pay1 (F := Ideal) (Gen.k0_pay3 (F := Ideal) x0 x1 x3 x2) (ix3 (0 : Fin 1) q d)
      = Cert.Attn.mixed Q K V M b q d := by
  unfold Gen.k0_pay1
  exact (shapeCast_ab_1ab_apply _ shapeCasts_S256x64_S1x256x64 (0 : Fin 1) q d).trans
    (mixed_at x0 x1 x2 x3 Q K V M b h0 h1 h2 h3 q d)

end Cert.KernelIdeal.AttnBlock

end
-- ==== Proof.PairMeanBlock.lean ====
/-
  One block of the pairwise mean. The body takes two [1, 64, 256, 64] blocks x0 and x1, drops the leading unit
  axis, multiplies entry by entry, sums over the middle axis of length 256, scales by the word of 1/256 and puts the
  leading unit axis back. At the entry (0, r, d) of the [1, 64, 64] result this is
      (Σ_j x0[0, r, j, d] · x1[0, r, j, d]) · (1/256).
  When the two blocks hold rows row(r) of batch b of two arrays sa and sv, that is pairMean sa sv b (row r) d.
-/
import proofs.«108301_j15788299780171_1_alg».proof.Proof.Gen.KernelIdeal.Skeleton
import proofs.«108301_j15788299780171_1_alg».proof.Proof.AttnSpec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.PairMeanBlock

open Idealize.ShloMosaic Idealize.ShloMosaic.ValueIdx Cert.KernelIdeal

/-- The reduced index (r, d) with the middle coordinate k put back is (r, k, d). -/
theorem lift_mid {a K c : ℕ} (h : (⟨3, ![a, K, c]⟩ : Shape).Reduces [1] (⟨2, ![a, c]⟩ : Shape)) (r : Fin a) (d : Fin c)
    (k : Fin ((⟨3, ![a, K, c]⟩ : Shape).size 1)) : h.lift (ix2 r d) k = ix3 r (⟨k.val, k.isLt⟩ : Fin K) d := by
  funext e; apply Fin.ext
  fin_cases e <;> rfl

/-- The sum of an [a, K, c] block over its middle axis, at (r, d), is the sum over k < K of the block at (r, k, d). -/
theorem midSum_apply {a K c : ℕ} {φ : FTy} (src : FVec Ideal (⟨3, ![a, K, c]⟩ : Shape) φ) (acc : BitVec φ.bits)
    (h : (⟨3, ![a, K, c]⟩ : Shape).Reduces [1] (⟨2, ![a, c]⟩ : Shape)) (hφ : FKind.Formats φ)
    (hacc : acc = FKind.add.neutral φ hφ) (r : Fin a) (d : Fin c) :
    multiReduction .add [1] (⟨2, ![a, c]⟩ : Shape) src acc h hφ hacc (ix2 r d) = ∑ k : Fin K, src (ix3 r k d) := by
  rw [Ideal.multiReduction_add_single]
  exact Finset.sum_congr rfl fun k _ => by rw [lift_mid]; rfl

/-- The body's result at (0, r, d), as a sum over the 256 middle coordinates of the two blocks' products. -/
theorem pay_sum (x0 x1 : Vec Ideal S1x64x256x64 .f32) (r : Fin 64) (d : Fin 64) :
    Gen.k1_pay1 (F := Ideal) x0 x1 (ix3 (0 : Fin 1) r d)
      = (∑ j : Fin 256, x0 (ix4 (0 : Fin 1) r j d) * x1 (ix4 (0 : Fin 1) r j d)) * Ideal.ofBits .f32 0x3B800000#32 := by
  unfold Gen.k1_pay1
  refine (shapeCast_ab_1ab_apply _ _ (0 : Fin 1) r d).trans ?_
  refine congrArg (· * Ideal.ofBits .f32 0x3B800000#32) ?_
  refine (midSum_apply _ _ _ _ _ r d).trans ?_
  refine Finset.sum_congr rfl fun j _ => ?_
  exact congrArg₂ (· * ·) (shapeCast_1abc_abc_apply x0 _ r j d) (shapeCast_1abc_abc_apply x1 _ r j d)

/-- When the blocks hold rows row(r) of batch b of sa and sv, the body's result at (0, r, d) is the mean of the
    products over the third axis, at (b, row r, d). -/
theorem pay_at (x0 x1 : Vec Ideal S1x64x256x64 .f32) (sa sv : Cert.Attn.SS.Idx → EReal) (b : Fin 32) (row : Fin 64 → Fin 256)
    (h0 : ∀ (r : Fin 64) (j : Fin 256) (d : Fin 64), x0 (ix4 (0 : Fin 1) r j d) = sa (ix4 b (row r) j d))
    (h1 : ∀ (r : Fin 64) (j : Fin 256) (d : Fin 64), x1 (ix4 (0 : Fin 1) r j d) = sv (ix4 b (row r) j d))
    (r : Fin 64) (d : Fin 64) :
    Gen.k1_pay1 (F := Ideal) x0 x1 (ix3 (0 : Fin 1) r d) = Cert.Attn.pairMean sa sv b (row r) d := by
  rw [pay_sum]
  unfold Cert.Attn.pairMean
  refine congrArg (· * Ideal.ofBits .f32 0x3B800000#32) ?_
  exact Finset.sum_congr rfl fun j _ => by rw [h0, h1]

end Cert.KernelIdeal.PairMeanBlock

end
-- ==== Proof.PairMeanArray.lean ====
/-
  From blocks to the array. The second region walks a 32 x 4 grid; at the point (b, q) it fetches the [1, 64, 256, 64]
  blocks of the two operands that start at row 64 q of batch b, and writes back the [1, 64, 64] block of the result
  that starts at the same row of the same batch. An element of a block sits in its array, on every axis, at block
  index times block size plus its coordinate inside the block. So what the point writes back is that block of
  pairMeanArr of the two operand arrays, and since the 128 result blocks tile the [32, 256, 64] array, the array the
  region leaves is pairMeanArr of the operands as the region found them. The operands are not written by the first
  region, so the region finds them as launched.
-/
import proofs.«108301_j15788299780171_1_alg».proof.Proof.Gen.KernelIdeal.Frame
import proofs.«108301_j15788299780171_1_alg».proof.Proof.PairMeanBlock
import proofs.«108301_j15788299780171_1_alg».proof.Proof.AttnSpec
import Idealize.ShloMosaic.Lib.Pipeline.Value

noncomputable section

namespace Cert.KernelIdeal.PairMeanArray

open Cert.KernelIdeal Cert.KernelIdeal.Gen Idealize.ShloMosaic Idealize.ShloMosaic.TcCoe Idealize.ShloMosaic.ValueIdx Idealize.SL.Sem
open Idealize.ShloMosaic.Pipeline (Dat)

theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-! ## The index maps, decided over the 128 grid points -/

/-- At every point the two operand windows sit at the result window's batch and row block and at block 0 of the two
    inner axes; the result window's batch is below 32, its row block below 4, its last block index 0. -/
theorem idx_facts : ∀ t : Fin cfg1.N,
    win1_0.index t (0 : Fin 4) = win1_2.index t (0 : Fin 3) ∧ win1_0.index t (1 : Fin 4) = win1_2.index t (1 : Fin 3)
    ∧ win1_0.index t (2 : Fin 4) = 0 ∧ win1_0.index t (3 : Fin 4) = 0
    ∧ win1_1.index t (0 : Fin 4) = win1_2.index t (0 : Fin 3) ∧ win1_1.index t (1 : Fin 4) = win1_2.index t (1 : Fin 3)
    ∧ win1_1.index t (2 : Fin 4) = 0 ∧ win1_1.index t (3 : Fin 4) = 0
    ∧ win1_2.index t (0 : Fin 3) < 32 ∧ win1_2.index t (1 : Fin 3) < 4 ∧ win1_2.index t (2 : Fin 3) = 0 :=
  (by decide +kernel : ∀ t : Fin grid1.N, _)

/-- Every (batch, row block) is some point's. -/
theorem idx_onto : ∀ (q0 : Fin 32) (q1 : Fin 4), ∃ t : Fin cfg1.N, win1_2.index t = ![q0.val, q1.val, 0] :=
  (by decide +kernel : ∀ (q0 : Fin 32) (q1 : Fin 4), ∃ t : Fin grid1.N, win1_2.index t = ![q0.val, q1.val, 0])

/-! ## The body's result at a block entry, against the array -/

/-- Blocks x0, x1 that hold the rows 64 i1 … 64 i1 + 63 of batch i0 of sa and sv give, at the block entry y, the
    pairwise mean at the array index k that y sits at. -/
theorem block_at (x0 x1 : Vec Ideal S1x64x256x64 .f32) (sa sv : Cert.Attn.SS.Idx → EReal) (i0 i1 : ℕ) (hi0 : i0 < 32) (hi1 : i1 < 4)
    (h0 : ∀ (y : S1x64x256x64.Idx) (k : Cert.Attn.SS.Idx), (k 0).val = i0 + (y 0).val → (k 1).val = i1 * 64 + (y 1).val →
      (k 2).val = (y 2).val → (k 3).val = (y 3).val → x0 y = sa k)
    (h1 : ∀ (y : S1x64x256x64.Idx) (k : Cert.Attn.SS.Idx), (k 0).val = i0 + (y 0).val → (k 1).val = i1 * 64 + (y 1).val →
      (k 2).val = (y 2).val → (k 3).val = (y 3).val → x1 y = sv k)
    (y : S1x64x64.Idx) (k : Cert.Attn.SQ.Idx) (hk0 : (k 0).val = i0 + (y 0).val) (hk1 : (k 1).val = i1 * 64 + (y 1).val)
    (hk2 : (k 2).val = (y 2).val) :
    Gen.k1_pay1 (F := Ideal) x0 x1 y = Cert.Attn.pairMeanArr sa sv k := by
  obtain ⟨u, r, d, rfl⟩ : ∃ (u : Fin 1) (r : Fin 64) (d : Fin 64), y = ix3 u r d := ⟨y 0, y 1, y 2, eq_ix3 y⟩
  obtain ⟨b, q, d', rfl⟩ : ∃ (b : Fin 32) (q : Fin 256) (d' : Fin 64), k = ix3 b q d' := ⟨k 0, k 1, k 2, eq_ix3 k⟩
  have hu : u = 0 := Fin.ext (by omega)
  subst hu
  have hb : b.val = i0 := by have h : b.val = i0 + (0 : Fin 1).val := hk0; simpa using h
  have hq : q.val = i1 * 64 + r.val := hk1
  have hd : d' = d := Fin.ext hk2
  subst hd
  have hlt : i1 * 64 + r.val < 256 := by have := r.isLt; omega
  have hq' : q = ⟨i1 * 64 + r.val, hlt⟩ := Fin.ext hq
  subst hq'
  rw [Cert.Attn.pairMeanArr_ix3]
  exact PairMeanBlock.pay_at x0 x1 sa sv b (fun r => ⟨i1 * 64 + r.val, by have := r.isLt; omega⟩)
    (fun r j d => h0 _ _ (by show b.val = i0 + 0; omega) rfl rfl rfl)
    (fun r j d => h1 _ _ (by show b.val = i0 + 0; omega) rfl rfl rfl) r d'

section Region

variable (V : (c : Dev nD) → (b : Ref sig .tc) → Buf (Elt Ideal) ((c : Thread nD τ).loc b))

/-! ## The operand blocks, read off their arrays -/

/-- An entry of the first operand's block at point t is the operand array's entry at the result window's batch and
    row block. -/
theorem in0_read (c : Dev nD) (t : Fin cfg1.N) (y : S1x64x256x64.Idx) (k : S32x256x256x64.Idx)
    (hk0 : (k 0).val = win1_2.index t (0 : Fin 3) + (y 0).val) (hk1 : (k 1).val = win1_2.index t (1 : Fin 3) * 64 + (y 1).val)
    (hk2 : (k 2).val = (y 2).val) (hk3 : (k 3).val = (y 3).val) :
    (iblk1 V c 0 t : Vec Ideal S1x64x256x64 .f32) y = (V c main_arg3 : S32x256x256x64.Idx → EReal) k := by
  obtain ⟨e0, e1, e2, e3, -⟩ := idx_facts t
  unfold iblk1
  rw [View.read_apply]
  show V c main_arg3 _ = V c main_arg3 _
  refine congrArg _ (funext fun a => Fin.ext ?_)
  match a with
  | ⟨0, _⟩ => show win1_0.index t (0 : Fin 4) * 1 + 1 * (y 0).val = (k 0).val; omega
  | ⟨1, _⟩ => show win1_0.index t (1 : Fin 4) * 64 + 1 * (y 1).val = (k 1).val; omega
  | ⟨2, _⟩ => show win1_0.index t (2 : Fin 4) * 256 + 1 * (y 2).val = (k 2).val; omega
  | ⟨3, _⟩ => show win1_0.index t (3 : Fin 4) * 64 + 1 * (y 3).val = (k 3).val; omega

/-- The same for the second operand. -/
theorem in1_read (c : Dev nD) (t : Fin cfg1.N) (y : S1x64x256x64.Idx) (k : S32x256x256x64.Idx)
    (hk0 : (k 0).val = win1_2.index t (0 : Fin 3) + (y 0).val) (hk1 : (k 1).val = win1_2.index t (1 : Fin 3) * 64 + (y 1).val)
    (hk2 : (k 2).val = (y 2).val) (hk3 : (k 3).val = (y 3).val) :
    (iblk1 V c 1 t : Vec Ideal S1x64x256x64 .f32) y = (V c main_arg4 : S32x256x256x64.Idx → EReal) k := by
  obtain ⟨-, -, -, -, e0, e1, e2, e3, -⟩ := idx_facts t
  unfold iblk1
  rw [View.read_apply]
  show V c main_arg4 _ = V c main_arg4 _
  refine congrArg _ (funext fun a => Fin.ext ?_)
  match a with
  | ⟨0, _⟩ => show win1_1.index t (0 : Fin 4) * 1 + 1 * (y 0).val = (k 0).val; omega
  | ⟨1, _⟩ => show win1_1.index t (1 : Fin 4) * 64 + 1 * (y 1).val = (k 1).val; omega
  | ⟨2, _⟩ => show win1_1.index t (2 : Fin 4) * 256 + 1 * (y 2).val = (k 2).val; omega
  | ⟨3, _⟩ => show win1_1.index t (3 : Fin 4) * 64 + 1 * (y 3).val = (k 3).val; omega

/-! ## What a point writes back -/

/-- Point t writes back its block of pairMeanArr of the operand arrays as the region finds them. -/
theorem flushed_eq (c : Dev nD) (t : Fin cfg1.N) :
    (dat1 V c).flushed 2 t = ((cfg1.win 2).blk t).view.read (Elt Ideal)
      (Cert.Attn.pairMeanArr (V c main_arg3) (V c main_arg4)) := by
  show (cfg1.win 2).cut (grid1.coords t) ((dat1 V c).after 2 t) = _
  rw [after1_2]
  unfold out1_2
  rw [View.canon_unit_zero hz3]
  simp only [View.ld_unit_zero (S := S1x64x256x64) hz4]
  obtain ⟨-, -, -, -, -, -, -, -, b0, b1, z2⟩ := idx_facts t
  funext y
  show Gen.k1_pay1 (F := Ideal) (iblk1 V c 0 t) (iblk1 V c 1 t) y
    = Cert.Attn.pairMeanArr (V c main_arg3) (V c main_arg4) (((cfg1.win 2).blk t).view.emb y)
  refine block_at (iblk1 V c 0 t) (iblk1 V c 1 t) (V c main_arg3) (V c main_arg4)
    (win1_2.index t (0 : Fin 3)) (win1_2.index t (1 : Fin 3)) b0 b1
    (fun y k h0 h1 h2 h3 => in0_read V c t y k h0 h1 h2 h3) (fun y k h0 h1 h2 h3 => in1_read V c t y k h0 h1 h2 h3)
    y (((cfg1.win 2).blk t).view.emb y) ?_ ?_ ?_
  · show win1_2.index t (0 : Fin 3) * 1 + 1 * (y 0).val = win1_2.index t (0 : Fin 3) + (y 0).val; omega
  · show win1_2.index t (1 : Fin 3) * 64 + 1 * (y 1).val = win1_2.index t (1 : Fin 3) * 64 + (y 1).val; omega
  · show win1_2.index t (2 : Fin 3) * 64 + 1 * (y 2).val = (y 2).val; omega

/-! ## The result blocks tile the array -/

/-- An index of the result array is in point t's block iff each coordinate is in the block's range on its axis. -/
theorem mem_blk (t : Fin cfg1.N) (i : S32x256x64.Idx) :
    i ∈ ((cfg1.win 2).blk t).view.set ↔ ∀ a : Fin 3, win1_2.index t a * S1x64x64.size a ≤ (i a).val
      ∧ (i a).val < win1_2.index t a * S1x64x64.size a + S1x64x64.size a := by
  show i ∈ ((View.whole main_v1).slice (win1_2.rect t)).set ↔ _
  rw [View.set_slice_whole, Rect.mem_set_unit]
  exact Iff.rfl

/-- The index (b, q, d) is in the block of the point whose batch is b and whose row block is q / 64. -/
theorem cover (i : S32x256x64.Idx) :
    ∃ t : Fin cfg1.N, (cfg1.win 2).flush t = true ∧ i ∈ ((cfg1.win 2).blk t).view.set := by
  have hi0 : (i 0).val < 32 := (i 0).isLt
  have hi1 : (i 1).val < 256 := (i 1).isLt
  have hi2 : (i 2).val < 64 := (i 2).isLt
  obtain ⟨t, ht⟩ := idx_onto ⟨(i 0).val, hi0⟩ ⟨(i 1).val / 64, by omega⟩
  have q0 : win1_2.index t (0 : Fin 3) = (i 0).val := congrFun ht 0
  have q1 : win1_2.index t (1 : Fin 3) = (i 1).val / 64 := congrFun ht 1
  have q2 : win1_2.index t (2 : Fin 3) = 0 := congrFun ht 2
  refine ⟨t, flush1_2 t, ?_⟩
  rw [mem_blk]
  intro a
  match a with
  | ⟨0, _⟩ => show win1_2.index t (0 : Fin 3) * 1 ≤ (i 0).val ∧ (i 0).val < win1_2.index t (0 : Fin 3) * 1 + 1; omega
  | ⟨1, _⟩ => show win1_2.index t (1 : Fin 3) * 64 ≤ (i 1).val ∧ (i 1).val < win1_2.index t (1 : Fin 3) * 64 + 64; omega
  | ⟨2, _⟩ => show win1_2.index t (2 : Fin 3) * 64 ≤ (i 2).val ∧ (i 2).val < win1_2.index t (2 : Fin 3) * 64 + 64; omega

/-- So the array the region leaves is pairMeanArr of the operand arrays as the region finds them. -/
theorem array_at (c : Dev nD) :
    (dat1 V c).arrAt 2 cfg1.N = Cert.Attn.pairMeanArr (V c main_arg3) (V c main_arg4) :=
  (dat1 V c).arrAt_eq_of_cover 2 (Cert.Attn.pairMeanArr (V c main_arg3) (V c main_arg4)) (fun t _ => flushed_eq V c t) cover

end Region

/-! ## The operands as the region finds them are the operands as launched -/

variable (m : (ℓ : Loc nD τ sig) → Buf (Elt Ideal) ℓ) (ρ : Dev nD → PrngReg)

/-- The first region writes no window of the first operand's array. -/
theorem entry_arg3 (c : Dev nD) : Gen.V1 m ρ c main_arg3 = m ((c : Thread nD τ).loc main_arg3) :=
  (Gen.W1_of_ne m ρ c main_arg3 (by decide)).trans rfl

/-- Nor of the second operand's. -/
theorem entry_arg4 (c : Dev nD) : Gen.V1 m ρ c main_arg4 = m ((c : Thread nD τ).loc main_arg4) :=
  (Gen.W1_of_ne m ρ c main_arg4 (by decide)).trans rfl

/-- The array the second region leaves is the pairwise mean of the two launched operand arrays. -/
theorem array_eq (c : Dev nD) :
    (Gen.dat1 (Gen.V1 m ρ) c).arrAt 2 cfg1.N
      = Cert.Attn.pairMeanArr (m ((c : Thread nD τ).loc main_arg3)) (m ((c : Thread nD τ).loc main_arg4)) := by
  rw [array_at (Gen.V1 m ρ) c, entry_arg3 m ρ c, entry_arg4 m ρ c]

end Cert.KernelIdeal.PairMeanArray

end
-- ==== Proof.lean ====
/-
  The certificate's five claims.

  The kernel is two regions and one host line: masked softmax attention over 32 batches (scores Q·Kᵀ/8, the fill where
  the mask is zero, a softmax along the keys, the weights times V), the mean over j of sa[b,q,j,d]·sv[b,q,j,d] over a
  32 × 4 grid of row blocks, and the two [32,256,64] results side by side along the last axis; the reference computes
  the same with host operations. On the extended reals the two programs differ only in spelling: a product with 1/8
  and with 1/256 against a quotient by 8 and by 256 (equal on every extended real), sums and maxima taken in another
  order, and format changes that are the identity.

  The three frames are the generated ones (the reference's frame is its run with the results dropped). The ideal pass
  rewrote nothing, so there is nothing to preserve. For the algebraic claim both runs are stated with the same terms:
  the specification's arrays (AttnSpec) of the argument arrays — the kernel's by reading each region's array off its
  blocks (AttnBlock, AttnArray, PairMeanBlock, PairMeanArray) and the host line off the fold (KernelRun, KernelValue),
  the reference's by reading its operations index by index (RefValue).
-/
import proofs.«108301_j15788299780171_1_alg».proof.Defs
import proofs.«108301_j15788299780171_1_alg».proof.Proof.Gen.Kernel
import proofs.«108301_j15788299780171_1_alg».proof.Proof.Gen.Kernel.Skeleton
import proofs.«108301_j15788299780171_1_alg».proof.Proof.Gen.Kernel.Launch
import proofs.«108301_j15788299780171_1_alg».proof.Proof.Gen.Kernel.Points
import proofs.«108301_j15788299780171_1_alg».proof.Proof.Gen.Kernel.Frame
import proofs.«108301_j15788299780171_1_alg».proof.Proof.Gen.KernelIdeal
import proofs.«108301_j15788299780171_1_alg».proof.Proof.Gen.KernelIdeal.Skeleton
import proofs.«108301_j15788299780171_1_alg».proof.Proof.Gen.KernelIdeal.Launch
import proofs.«108301_j15788299780171_1_alg».proof.Proof.Gen.KernelIdeal.Points
import proofs.«108301_j15788299780171_1_alg».proof.Proof.Gen.KernelIdeal.Frame
import proofs.«108301_j15788299780171_1_alg».proof.Proof.Gen.ReferenceIdeal
import proofs.«108301_j15788299780171_1_alg».proof.Proof.Gen.Pre_finite_inputs
import proofs.«108301_j15788299780171_1_alg».proof.Proof.RefRunP
import proofs.«108301_j15788299780171_1_alg».proof.Proof.RefReadP
import proofs.«108301_j15788299780171_1_alg».proof.Proof.RefValue
import proofs.«108301_j15788299780171_1_alg».proof.Proof.KernelValue
import proofs.«108301_j15788299780171_1_alg».proof.Proof.AttnBlock
import proofs.«108301_j15788299780171_1_alg».proof.Proof.PairMeanArray
import Idealize.ShloMosaic.Adequacy
import Idealize.ShloMosaic.Init

noncomputable section

namespace Cert.Proof.Claims

open Idealize.ShloMosaic Idealize.ShloMosaic.TcCoe Idealize.SL.Sem
open Cert.KernelIdeal.Whole Cert.KernelIdeal.AttnArray

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2) (Cert.ReferenceIdeal.ValueP.run (F := Ideal) m ρ)

/-- The ideal pass rewrote nothing: there is nothing to preserve. -/
theorem preserves : Cert.preserves_Kernel_KernelIdeal := trivial

/-- Both programs end with the weighted sums and the pair means side by side, and with the attention weights, of
    arguments that agree. -/
theorem algebraic : Cert.algebraic_KernelIdeal_ReferenceIdeal := by
  intro m ρ m' ρ' _ hagree
  refine ⟨fun c => sideBySide (Cert.Attn.mixedArr (argQ m c) (argK m c) (argV m c) (argM m c)) (Cert.Attn.pairMeanArr (argA m c) (argB m c)),
    fun c => Cert.Attn.attnArr (argQ m c) (argK m c) (argM m c),
    run_values m ρ Cert.KernelIdeal.AttnBlock.weights_store_at Cert.KernelIdeal.AttnBlock.mixed_store_at
      (Cert.KernelIdeal.PairMeanArray.array_eq m ρ), ?_⟩
  refine (θ_run Cert.ReferenceIdeal.defs _ _).mono (fun _ h c => ⟨(h c).1.trans ?_, (h c).2.1.trans ?_, (h c).2.2⟩)
    (Cert.ReferenceIdeal.ValueP.run (F := Ideal) m' ρ')
  · obtain ⟨a0, a1, a2, a3, a4, a5⟩ := hagree c
    rw [a0, a1, a2, a3, a4, a5, Cert.ReferenceIdeal.ReadP.val_main_v22_eq]
    unfold Cert.ReferenceIdeal.ReadP.val_main_v22
    rw [Cert.ReferenceIdeal.RefValue.mixed_eq, Cert.ReferenceIdeal.RefValue.pairMean_eq]
    rfl
  · obtain ⟨a0, a1, a2, a3, a4, a5⟩ := hagree c
    rw [a0, a1, a5, Cert.ReferenceIdeal.ReadP.val_main_v16_eq, Cert.ReferenceIdeal.RefValue.attn_eq]

end Cert.Proof.Claims

namespace Cert.Proof

theorem claim : Cert.Claim := ⟨Cert.Kernel.Gen.facts, Cert.KernelIdeal.Gen.facts, Cert.ReferenceIdeal.Gen.facts, Cert.Pre_finite_inputs.Gen.facts,
  Claims.frame_k, Claims.frame_ki, Claims.frame_ri, Claims.preserves, Claims.algebraic⟩

end Cert.Proof

end
